-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8 : Shape := ⟨2, ![4, 8]⟩
abbrev S8 : Shape := ⟨1, ![8]⟩
abbrev S8x8 : Shape := ⟨2, ![8, 8]⟩
abbrev S8x64 : Shape := ⟨2, ![8, 64]⟩
abbrev S8x512 : Shape := ⟨2, ![8, 512]⟩
abbrev S8x4096 : Shape := ⟨2, ![8, 4096]⟩
abbrev S8x32768 : Shape := ⟨2, ![8, 32768]⟩
abbrev S8x262144 : Shape := ⟨2, ![8, 262144]⟩
abbrev S8x2097152 : Shape := ⟨2, ![8, 2097152]⟩
abbrev S8x16777216 : Shape := ⟨2, ![8, 16777216]⟩
abbrev S_ : Shape := ⟨0, ![]⟩

class Facts : Prop where
  bcast_S_S4x8 : S_.BroadcastsInDim S4x8 (![] : Fin 0 → Fin S4x8.rank)
  reducesTo_S4x8_S_d0_1 : S4x8.ReducesTo [0, 1] S_
  h_S_ : 0 < S_.numel
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S8x64 : S_.BroadcastsInDim S8x64 (![] : Fin 0 → Fin S8x64.rank)
  reducesTo_S8x64_S_d0_1 : S8x64.ReducesTo [0, 1] S_
  bcast_S_S8x512 : S_.BroadcastsInDim S8x512 (![] : Fin 0 → Fin S8x512.rank)
  reducesTo_S8x512_S_d0_1 : S8x512.ReducesTo [0, 1] S_
  bcast_S_S8x4096 : S_.BroadcastsInDim S8x4096 (![] : Fin 0 → Fin S8x4096.rank)
  reducesTo_S8x4096_S_d0_1 : S8x4096.ReducesTo [0, 1] S_
  bcast_S_S8x32768 : S_.BroadcastsInDim S8x32768 (![] : Fin 0 → Fin S8x32768.rank)
  reducesTo_S8x32768_S_d0_1 : S8x32768.ReducesTo [0, 1] S_
  bcast_S_S8x262144 : S_.BroadcastsInDim S8x262144 (![] : Fin 0 → Fin S8x262144.rank)
  reducesTo_S8x262144_S_d0_1 : S8x262144.ReducesTo [0, 1] S_
  bcast_S_S8x2097152 : S_.BroadcastsInDim S8x2097152 (![] : Fin 0 → Fin S8x2097152.rank)
  reducesTo_S8x2097152_S_d0_1 : S8x2097152.ReducesTo [0, 1] S_
  bcast_S_S8x16777216 : S_.BroadcastsInDim S8x16777216 (![] : Fin 0 → Fin S8x16777216.rank)
  reducesTo_S8x16777216_S_d0_1 : S8x16777216.ReducesTo [0, 1] S_

variable [Facts]

def fn_part2 {F : FTy → Type} [FloatOps F] (main_arg7 : FVec F S8x262144 .f32) (main_arg8 : FVec F S8x2097152 .f32) (main_arg9 : FVec F S8x16777216 .f32) (main_v33 : IVec S_ 1) : IVec S_ 1 :=
  let main_v34 : FVec F S8x262144 .f32 := Host.absf main_arg7
  let main_cst_12 : FVec F S_ .f32 := constant S_ .f32 0x7F800000#32
  let main_v35 : FVec F S8x262144 .f32 := broadcastInDim S8x262144 ![] bcast_S_S8x262144 main_cst_12
  let main_v36 : IVec S8x262144 1 := cmpf .olt main_v34 main_v35
  let main_c_13 : IVec S_ 1 := constantI S_ 1 1#1
  let main_v37 : IVec S_ 1 := (fun x v => Host.reduce IntOp.andi x v reducesTo_S8x262144_S_d0_1 h_S_) main_v36 main_c_13
  let main_v38 : IVec S_ 1 := andi main_v33 main_v37
  let main_v39 : FVec F S8x2097152 .f32 := Host.absf main_arg8
  let main_cst_14 : FVec F S_ .f32 := constant S_ .f32 0x7F800000#32
  let main_v40 : FVec F S8x2097152 .f32 := broadcastInDim S8x2097152 ![] bcast_S_S8x2097152 main_cst_14
  let main_v41 : IVec S8x2097152 1 := cmpf .olt main_v39 main_v40
  let main_c_15 : IVec S_ 1 := constantI S_ 1 1#1
  let main_v42 : IVec S_ 1 := (fun x v => Host.reduce IntOp.andi x v reducesTo_S8x2097152_S_d0_1 h_S_) main_v41 main_c_15
  let main_v43 : IVec S_ 1 := andi main_v38 main_v42
  let main_v44 : FVec F S8x16777216 .f32 := Host.absf main_arg9
  let main_cst_16 : FVec F S_ .f32 := constant S_ .f32 0x7F800000#32
  let main_v45 : FVec F S8x16777216 .f32 := broadcastInDim S8x16777216 ![] bcast_S_S8x16777216 main_cst_16
  let main_v46 : IVec S8x16777216 1 := cmpf .olt main_v44 main_v45
  let main_c_17 : IVec S_ 1 := constantI S_ 1 1#1
  let main_v47 : IVec S_ 1 := (fun x v => Host.reduce IntOp.andi x v reducesTo_S8x16777216_S_d0_1 h_S_) main_v46 main_c_17
  let main_v48 : IVec S_ 1 := andi main_v43 main_v47
  main_v48

def fn_part1 {F : FTy → Type} [FloatOps F] (main_arg4 : FVec F S8x512 .f32) (main_arg5 : FVec F S8x4096 .f32) (main_arg6 : FVec F S8x32768 .f32) (main_arg7 : FVec F S8x262144 .f32) (main_arg8 : FVec F S8x2097152 .f32) (main_arg9 : FVec F S8x16777216 .f32) (main_v13 : IVec S_ 1) (main_v16 : IVec S8x64 1) : IVec S_ 1 :=
  let main_c_5 : IVec S_ 1 := constantI S_ 1 1#1
  let main_v17 : IVec S_ 1 := (fun x v => Host.reduce IntOp.andi x v reducesTo_S8x64_S_d0_1 h_S_) main_v16 main_c_5
  let main_v18 : IVec S_ 1 := andi main_v13 main_v17
  let main_v19 : FVec F S8x512 .f32 := Host.absf main_arg4
  let main_cst_6 : FVec F S_ .f32 := constant S_ .f32 0x7F800000#32
  let main_v20 : FVec F S8x512 .f32 := broadcastInDim S8x512 ![] bcast_S_S8x512 main_cst_6
  let main_v21 : IVec S8x512 1 := cmpf .olt main_v19 main_v20
  let main_c_7 : IVec S_ 1 := constantI S_ 1 1#1
  let main_v22 : IVec S_ 1 := (fun x v => Host.reduce IntOp.andi x v reducesTo_S8x512_S_d0_1 h_S_) main_v21 main_c_7
  let main_v23 : IVec S_ 1 := andi main_v18 main_v22
  let main_v24 : FVec F S8x4096 .f32 := Host.absf main_arg5
  let main_cst_8 : FVec F S_ .f32 := constant S_ .f32 0x7F800000#32
  let main_v25 : FVec F S8x4096 .f32 := broadcastInDim S8x4096 ![] bcast_S_S8x4096 main_cst_8
  let main_v26 : IVec S8x4096 1 := cmpf .olt main_v24 main_v25
  let main_c_9 : IVec S_ 1 := constantI S_ 1 1#1
  let main_v27 : IVec S_ 1 := (fun x v => Host.reduce IntOp.andi x v reducesTo_S8x4096_S_d0_1 h_S_) main_v26 main_c_9
  let main_v28 : IVec S_ 1 := andi main_v23 main_v27
  let main_v29 : FVec F S8x32768 .f32 := Host.absf main_arg6
  let main_cst_10 : FVec F S_ .f32 := constant S_ .f32 0x7F800000#32
  let main_v30 : FVec F S8x32768 .f32 := broadcastInDim S8x32768 ![] bcast_S_S8x32768 main_cst_10
  let main_v31 : IVec S8x32768 1 := cmpf .olt main_v29 main_v30
  let main_c_11 : IVec S_ 1 := constantI S_ 1 1#1
  let main_v32 : IVec S_ 1 := (fun x v => Host.reduce IntOp.andi x v reducesTo_S8x32768_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x8 .f32) (main_arg1 : FVec F S8 .f32) (main_arg2 : FVec F S8x8 .f32) (main_arg3 : FVec F S8x64 .f32) (main_arg4 : FVec F S8x512 .f32) (main_arg5 : FVec F S8x4096 .f32) (main_arg6 : FVec F S8x32768 .f32) (main_arg7 : FVec F S8x262144 .f32) (main_arg8 : FVec F S8x2097152 .f32) (main_arg9 : FVec F S8x16777216 .f32) : IVec S_ 1 :=
  let main_v0 : FVec F S4x8 .f32 := Host.absf main_arg0
  let main_cst : FVec F S_ .f32 := constant S_ .f32 0x7F800000#32
  let main_v1 : FVec F S4x8 .f32 := broadcastInDim S4x8 ![] bcast_S_S4x8 main_cst
  let main_v2 : IVec S4x8 1 := cmpf .olt main_v0 main_v1
  let main_c : IVec S_ 1 := constantI S_ 1 1#1
  let main_v3 : IVec S_ 1 := (fun x v => Host.reduce IntOp.andi x v reducesTo_S4x8_S_d0_1 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S8x8 .f32 := Host.absf main_arg2
  let main_cst_2 : FVec F S_ .f32 := constant S_ .f32 0x7F800000#32
  let main_v10 : FVec F S8x8 .f32 := broadcastInDim S8x8 ![] bcast_S_S8x8 main_cst_2
  let main_v11 : IVec S8x8 1 := cmpf .olt main_v9 main_v10
  let main_c_3 : IVec S_ 1 := constantI S_ 1 1#1
  let main_v12 : IVec S_ 1 := (fun x v => Host.reduce IntOp.andi x v reducesTo_S8x8_S_d0_1 h_S_) main_v11 main_c_3
  let main_v13 : IVec S_ 1 := andi main_v8 main_v12
  let main_v14 : FVec F S8x64 .f32 := Host.absf main_arg3
  let main_cst_4 : FVec F S_ .f32 := constant S_ .f32 0x7F800000#32
  let main_v15 : FVec F S8x64 .f32 := broadcastInDim S8x64 ![] bcast_S_S8x64 main_cst_4
  let main_v16 : IVec S8x64 1 := cmpf .olt main_v14 main_v15
  fn_part1 (F := F) main_arg4 main_arg5 main_arg6 main_arg7 main_arg8 main_arg9 main_v13 main_v16
-- ==== Kernel.lean ====
abbrev S4x8 : Shape := ⟨2, ![4, 8]⟩
abbrev S8 : Shape := ⟨1, ![8]⟩
abbrev S8x8 : Shape := ⟨2, ![8, 8]⟩
abbrev S8x64 : Shape := ⟨2, ![8, 64]⟩
abbrev S8x512 : Shape := ⟨2, ![8, 512]⟩
abbrev S8x4096 : Shape := ⟨2, ![8, 4096]⟩
abbrev S8x32768 : Shape := ⟨2, ![8, 32768]⟩
abbrev S8x262144 : Shape := ⟨2, ![8, 262144]⟩
abbrev S8x2097152 : Shape := ⟨2, ![8, 2097152]⟩
abbrev S8x16777216 : Shape := ⟨2, ![8, 16777216]⟩
abbrev S4x8x1 : Shape := ⟨3, ![4, 8, 1]⟩
abbrev S4x1x8 : Shape := ⟨3, ![4, 1, 8]⟩
abbrev S4x8x8 : Shape := ⟨3, ![4, 8, 8]⟩
abbrev S4x64 : Shape := ⟨2, ![4, 64]⟩
abbrev S4x1x64 : Shape := ⟨3, ![4, 1, 64]⟩
abbrev S4x8x64 : Shape := ⟨3, ![4, 8, 64]⟩
abbrev S4x512 : Shape := ⟨2, ![4, 512]⟩
abbrev S4x1x512 : Shape := ⟨3, ![4, 1, 512]⟩
abbrev S4x8x512 : Shape := ⟨3, ![4, 8, 512]⟩
abbrev S4x4096 : Shape := ⟨2, ![4, 4096]⟩
abbrev S4x1x4096 : Shape := ⟨3, ![4, 1, 4096]⟩
abbrev S4x8x4096 : Shape := ⟨3, ![4, 8, 4096]⟩
abbrev S4x32768 : Shape := ⟨2, ![4, 32768]⟩
abbrev S4x1x32768 : Shape := ⟨3, ![4, 1, 32768]⟩
abbrev S4x8x32768 : Shape := ⟨3, ![4, 8, 32768]⟩
abbrev S4x262144 : Shape := ⟨2, ![4, 262144]⟩
abbrev S1x8 : Shape := ⟨2, ![1, 8]⟩
abbrev S64x8 : Shape := ⟨2, ![64, 8]⟩
abbrev S512x8 : Shape := ⟨2, ![512, 8]⟩
abbrev S4096x8 : Shape := ⟨2, ![4096, 8]⟩
abbrev S32768x8 : Shape := ⟨2, ![32768, 8]⟩
abbrev S262144x8 : Shape := ⟨2, ![262144, 8]⟩
abbrev S2x4x8 : Shape := ⟨3, ![2, 4, 8]⟩
abbrev S1x4x8 : Shape := ⟨3, ![1, 4, 8]⟩
abbrev S1x64 : Shape := ⟨2, ![1, 64]⟩
abbrev S4 : Shape := ⟨1, ![4]⟩
abbrev S4x1 : Shape := ⟨2, ![4, 1]⟩
abbrev S_ : Shape := ⟨0, ![]⟩
abbrev S1x512 : Shape := ⟨2, ![1, 512]⟩

abbrev nBuf : Space → Nat
  | .hbm => 68
  | .vmem => 12
  | .smem => 0
  | _ => 0

abbrev bufTy : (tb : Table) → Fin (tcTables nBuf tb) → BufTy
  | .hbm, ⟨0, _⟩ => ⟨S4x8, .f32⟩
  | .hbm, ⟨1, _⟩ => ⟨S8, .f32⟩
  | .hbm, ⟨2, _⟩ => ⟨S8x8, .f32⟩
  | .hbm, ⟨3, _⟩ => ⟨S8x64, .f32⟩
  | .hbm, ⟨4, _⟩ => ⟨S8x512, .f32⟩
  | .hbm, ⟨5, _⟩ => ⟨S8x4096, .f32⟩
  | .hbm, ⟨6, _⟩ => ⟨S8x32768, .f32⟩
  | .hbm, ⟨7, _⟩ => ⟨S8x262144, .f32⟩
  | .hbm, ⟨8, _⟩ => ⟨S8x2097152, .f32⟩
  | .hbm, ⟨9, _⟩ => ⟨S8x16777216, .f32⟩
  | .hbm, ⟨10, _⟩ => ⟨S4x8x1, .f32⟩
  | .hbm, ⟨11, _⟩ => ⟨S4x1x8, .f32⟩
  | .hbm, ⟨12, _⟩ => ⟨S4x8x8, .f32⟩
  | .hbm, ⟨13, _⟩ => ⟨S4x8x8, .f32⟩
  | .hbm, ⟨14, _⟩ => ⟨S4x8x8, .f32⟩
  | .hbm, ⟨15, _⟩ => ⟨S4x64, .f32⟩
  | .hbm, ⟨16, _⟩ => ⟨S4x8x1, .f32⟩
  | .hbm, ⟨17, _⟩ => ⟨S4x1x64, .f32⟩
  | .hbm, ⟨18, _⟩ => ⟨S4x8x64, .f32⟩
  | .hbm, ⟨19, _⟩ => ⟨S4x8x64, .f32⟩
  | .hbm, ⟨20, _⟩ => ⟨S4x8x64, .f32⟩
  | .hbm, ⟨21, _⟩ => ⟨S4x512, .f32⟩
  | .hbm, ⟨22, _⟩ => ⟨S4x8x1, .f32⟩
  | .hbm, ⟨23, _⟩ => ⟨S4x1x512, .f32⟩
  | .hbm, ⟨24, _⟩ => ⟨S4x8x512, .f32⟩
  | .hbm, ⟨25, _⟩ => ⟨S4x8x512, .f32⟩
  | .hbm, ⟨26, _⟩ => ⟨S4x8x512, .f32⟩
  | .hbm, ⟨27, _⟩ => ⟨S4x4096, .f32⟩
  | .hbm, ⟨28, _⟩ => ⟨S4x8x1, .f32⟩
  | .hbm, ⟨29, _⟩ => ⟨S4x1x4096, .f32⟩
  | .hbm, ⟨30, _⟩ => ⟨S4x8x4096, .f32⟩
  | .hbm, ⟨31, _⟩ => ⟨S4x8x4096, .f32⟩
  | .hbm, ⟨32, _⟩ => ⟨S4x8x4096, .f32⟩
  | .hbm, ⟨33, _⟩ => ⟨S4x32768, .f32⟩
  | .hbm, ⟨34, _⟩ => ⟨S4x8x1, .f32⟩
  | .hbm, ⟨35, _⟩ => ⟨S4x1x32768, .f32⟩
  | .hbm, ⟨36, _⟩ => ⟨S4x8x32768, .f32⟩
  | .hbm, ⟨37, _⟩ => ⟨S4x8x32768, .f32⟩
  | .hbm, ⟨38, _⟩ => ⟨S4x8x32768, .f32⟩
  | .hbm, ⟨39, _⟩ => ⟨S4x262144, .f32⟩
  | .hbm, ⟨40, _⟩ => ⟨S1x8, .f32⟩
  | .hbm, ⟨41, _⟩ => ⟨S4x8, .f32⟩
  | .hbm, ⟨42, _⟩ => ⟨S8x8, .f32⟩
  | .hbm, ⟨43, _⟩ => ⟨S4x8, .f32⟩
  | .hbm, ⟨44, _⟩ => ⟨S4x8, .f32⟩
  | .hbm, ⟨45, _⟩ => ⟨S64x8, .f32⟩
  | .hbm, ⟨46, _⟩ => ⟨S4x8, .f32⟩
  | .hbm, ⟨47, _⟩ => ⟨S4x8, .f32⟩
  | .hbm, ⟨48, _⟩ => ⟨S512x8, .f32⟩
  | .hbm, ⟨49, _⟩ => ⟨S4x8, .f32⟩
  | .hbm, ⟨50, _⟩ => ⟨S4x8, .f32⟩
  | .hbm, ⟨51, _⟩ => ⟨S4096x8, .f32⟩
  | .hbm, ⟨52, _⟩ => ⟨S4x8, .f32⟩
  | .hbm, ⟨53, _⟩ => ⟨S4x8, .f32⟩
  | .hbm, ⟨54, _⟩ => ⟨S32768x8, .f32⟩
  | .hbm, ⟨55, _⟩ => ⟨S4x8, .f32⟩
  | .hbm, ⟨56, _⟩ => ⟨S4x8, .f32⟩
  | .hbm, ⟨57, _⟩ => ⟨S262144x8, .f32⟩
  | .hbm, ⟨58, _⟩ => ⟨S4x8, .f32⟩
  | .hbm, ⟨59, _⟩ => ⟨S4x8, .f32⟩
  | .hbm, ⟨60, _⟩ => ⟨S2x4x8, .f32⟩
  | .hbm, ⟨61, _⟩ => ⟨S_, .f32⟩
  | .hbm, ⟨62, _⟩ => ⟨S4x8, .f32⟩
  | .hbm, ⟨63, _⟩ => ⟨S4x8, .f32⟩
  | .hbm, ⟨64, _⟩ => ⟨S2x4x8, .f32⟩
  | .hbm, ⟨65, _⟩ => ⟨S_, .f32⟩
  | .hbm, ⟨66, _⟩ => ⟨S4x8, .f32⟩
  | .hbm, ⟨67, _⟩ => ⟨S4x8, .f32⟩
  | .local _ .vmem, ⟨0, _⟩ => ⟨S4x64, .f32⟩
  | .local _ .vmem, ⟨1, _⟩ => ⟨S4x32768, .f32⟩
  | .local _ .vmem, ⟨2, _⟩ => ⟨S8x32768, .f32⟩
  | .local _ .vmem, ⟨3, _⟩ => ⟨S8x32768, .f32⟩
  | .local _ .vmem, ⟨4, _⟩ => ⟨S1x4x8, .f32⟩
  | .local _ .vmem, ⟨5, _⟩ => ⟨S1x4x8, .f32⟩
  | .local _ .vmem, ⟨6, _⟩ => ⟨S4x512, .f32⟩
  | .local _ .vmem, ⟨7, _⟩ => ⟨S4x32768, .f32⟩
  | .local _ .vmem, ⟨8, _⟩ => ⟨S8x32768, .f32⟩
  | .local _ .vmem, ⟨9, _⟩ => ⟨S8x32768, .f32⟩
  | .local _ .vmem, ⟨10, _⟩ => ⟨S1x4x8, .f32⟩
  | .local _ .vmem, ⟨11, _⟩ => ⟨S1x4x8, .f32⟩
  | _, _ => ⟨S4x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_0 : Ref sig .tc := ⟨.hbm, 65, rfl⟩
abbrev main_v54 : Ref sig .tc := ⟨.hbm, 66, rfl⟩
abbrev main_v55 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S4x32768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 256], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![c0_i32.toNat, v1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S4x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S4x32768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S8x32768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x4x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S4x8_S4x8x1_0_1 : S4x8.BroadcastsInDim S4x8x1 (![0, 1] : Fin 2 → Fin S4x8x1.rank)
  bcast_S4x8_S4x1x8_0_2 : S4x8.BroadcastsInDim S4x1x8 (![0, 2] : Fin 2 → Fin S4x1x8.rank)
  bcast_S4x8x1_S4x8x8_0_1_2 : S4x8x1.BroadcastsInDim S4x8x8 (![0, 1, 2] : Fin 3 → Fin S4x8x8.rank)
  bcast_S4x1x8_S4x8x8_0_1_2 : S4x1x8.BroadcastsInDim S4x8x8 (![0, 1, 2] : Fin 3 → Fin S4x8x8.rank)
  shapeCasts_S4x8x8_S4x64 : S4x8x8.ShapeCasts S4x64
  bcast_S4x64_S4x1x64_0_2 : S4x64.BroadcastsInDim S4x1x64 (![0, 2] : Fin 2 → Fin S4x1x64.rank)
  bcast_S4x8x1_S4x8x64_0_1_2 : S4x8x1.BroadcastsInDim S4x8x64 (![0, 1, 2] : Fin 3 → Fin S4x8x64.rank)
  bcast_S4x1x64_S4x8x64_0_1_2 : S4x1x64.BroadcastsInDim S4x8x64 (![0, 1, 2] : Fin 3 → Fin S4x8x64.rank)
  shapeCasts_S4x8x64_S4x512 : S4x8x64.ShapeCasts S4x512
  bcast_S4x512_S4x1x512_0_2 : S4x512.BroadcastsInDim S4x1x512 (![0, 2] : Fin 2 → Fin S4x1x512.rank)
  bcast_S4x8x1_S4x8x512_0_1_2 : S4x8x1.BroadcastsInDim S4x8x512 (![0, 1, 2] : Fin 3 → Fin S4x8x512.rank)
  bcast_S4x1x512_S4x8x512_0_1_2 : S4x1x512.BroadcastsInDim S4x8x512 (![0, 1, 2] : Fin 3 → Fin S4x8x512.rank)
  shapeCasts_S4x8x512_S4x4096 : S4x8x512.ShapeCasts S4x4096
  bcast_S4x4096_S4x1x4096_0_2 : S4x4096.BroadcastsInDim S4x1x4096 (![0, 2] : Fin 2 → Fin S4x1x4096.rank)
  bcast_S4x8x1_S4x8x4096_0_1_2 : S4x8x1.BroadcastsInDim S4x8x4096 (![0, 1, 2] : Fin 3 → Fin S4x8x4096.rank)
  bcast_S4x1x4096_S4x8x4096_0_1_2 : S4x1x4096.BroadcastsInDim S4x8x4096 (![0, 1, 2] : Fin 3 → Fin S4x8x4096.rank)
  shapeCasts_S4x8x4096_S4x32768 : S4x8x4096.ShapeCasts S4x32768
  bcast_S4x32768_S4x1x32768_0_2 : S4x32768.BroadcastsInDim S4x1x32768 (![0, 2] : Fin 2 → Fin S4x1x32768.rank)
  bcast_S4x8x1_S4x8x32768_0_1_2 : S4x8x1.BroadcastsInDim S4x8x32768 (![0, 1, 2] : Fin 3 → Fin S4x8x32768.rank)
  bcast_S4x1x32768_S4x8x32768_0_1_2 : S4x1x32768.BroadcastsInDim S4x8x32768 (![0, 1, 2] : Fin 3 → Fin S4x8x32768.rank)
  shapeCasts_S4x8x32768_S4x262144 : S4x8x32768.ShapeCasts S4x262144
  bcast_S8_S1x8_1 : S8.BroadcastsInDim S1x8 (![1] : Fin 1 → Fin S1x8.rank)
  bcast_S1x8_S4x8_0_1 : S1x8.BroadcastsInDim S4x8 (![0, 1] : Fin 2 → Fin S4x8.rank)
  transposes_S8x8_S8x8_1_0 : S8x8.Transposes [1, 0] S8x8
  transposes_S8x64_S64x8_1_0 : S8x64.Transposes [1, 0] S64x8
  transposes_S8x512_S512x8_1_0 : S8x512.Transposes [1, 0] S512x8
  transposes_S8x4096_S4096x8_1_0 : S8x4096.Transposes [1, 0] S4096x8
  transposes_S8x32768_S32768x8_1_0 : S8x32768.Transposes [1, 0] S32768x8
  transposes_S8x262144_S262144x8_1_0 : S8x262144.Transposes [1, 0] S262144x8
  inb_S1x4x8_S1x4x8_0_0_0 : ∀ a, (![0, 0, 0] : Fin 3 → Nat) a + S1x4x8.size a ≤ S1x4x8.size a
  h_S1x4x8 : 0 < S1x4x8.numel
  shapeCasts_S1x4x8_S4x8 : S1x4x8.ShapeCasts S4x8
  shapeCasts_S4x8_S1x4x8 : S4x8.ShapeCasts S1x4x8
  iota_S1x64_d1_w32 : S1x64.Iotas .tc 32 [1]
  natLt_1_32 : 1 < 32
  inb_S4x64_S4x64_0_0 : ∀ a, (![0, 0] : Fin 2 → Nat) a + S4x64.size a ≤ S4x64.size a
  h_S4x64 : 0 < S4x64.numel
  shapeCasts_S4x64_S4x64 : S4x64.ShapeCasts S4x64
  broadcasts_S1x64_S4x64 : S1x64.Broadcasts S4x64
  reduces_S4x64_S4 : S4x64.Reduces [1] S4
  shapeCasts_S4_S4x1 : S4.ShapeCasts S4x1
  inb_S4x32768_S4x32768_0_0 : ∀ a, (![0, 0] : Fin 2 → Nat) a + S4x32768.size a ≤ S4x32768.size a
  h_S4x32768 : 0 < S4x32768.numel
  shapeCasts_S4x32768_S4x32768 : S4x32768.ShapeCasts S4x32768
  broadcasts_S4x1_S4x32768 : S4x1.Broadcasts S4x32768
  bitsLt_bf16_f32 : FTy.bits .bf16 < FTy.bits .f32
  inb_S8x32768_S8x32768_0_0 : ∀ a, (![0, 0] : Fin 2 → Nat) a + S8x32768.size a ≤ S8x32768.size a
  h_S8x32768 : 0 < S8x32768.numel
  reducesTo_S2x4x8_S4x8_d0 : S2x4x8.ReducesTo [0] S4x8
  h_S_ : 0 < S_.numel
  iota_S1x512_d1_w32 : S1x512.Iotas .tc 32 [1]
  inb_S4x512_S4x512_0_0 : ∀ a, (![0, 0] : Fin 2 → Nat) a + S4x512.size a ≤ S4x512.size a
  h_S4x512 : 0 < S4x512.numel
  shapeCasts_S4x512_S4x512 : S4x512.ShapeCasts S4x512
  broadcasts_S1x512_S4x512 : S1x512.Broadcasts S4x512
  reduces_S4x512_S4 : S4x512.Reduces [1] S4
  dot_S4x8_S8x8_S4x8_1_0_0_1_n_n_wf : DotDims.WF S4x8 S8x8 S4x8 [1] [0] [0] [1] [] []
  dot_S4x64_S64x8_S4x8_1_0_0_1_n_n_wf : DotDims.WF S4x64 S64x8 S4x8 [1] [0] [0] [1] [] []
  dot_S4x512_S512x8_S4x8_1_0_0_1_n_n_wf : DotDims.WF S4x512 S512x8 S4x8 [1] [0] [0] [1] [] []
  dot_S4x4096_S4096x8_S4x8_1_0_0_1_n_n_wf : DotDims.WF S4x4096 S4096x8 S4x8 [1] [0] [0] [1] [] []
  dot_S4x32768_S32768x8_S4x8_1_0_0_1_n_n_wf : DotDims.WF S4x32768 S32768x8 S4x8 [1] [0] [0] [1] [] []
  dot_S4x262144_S262144x8_S4x8_1_0_0_1_n_n_wf : DotDims.WF S4x262144 S262144x8 S4x8 [1] [0] [0] [1] [] []
  dot_S4x32768_S8x32768_S4x8_1_1_0_0_n_n_wf : DotDims.WF S4x32768 S8x32768 S4x8 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x64.size a ≤ S4x64.size a
  hwx0_0 : ∀ i : grid0.Coords, EltTy.bits .f32 = 32 ∨ (Rect.block (s := S4x64) S4x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x32768.size a ≤ S4x32768.size a
  hwx0_1 : ∀ i : grid0.Coords, EltTy.bits .f32 = 32 ∨ (Rect.block (s := S4x32768) S4x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x32768.size a ≤ S8x2097152.size a
  hwx0_2 : ∀ i : grid0.Coords, EltTy.bits .f32 = 32 ∨ (Rect.block (s := S8x2097152) S8x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x8.size a ≤ S2x4x8.size a
  hwx0_3 : ∀ i : grid0.Coords, EltTy.bits .f32 = 32 ∨ (Rect.block (s := S2x4x8) S1x4x8.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4x512.size a ≤ S4x512.size a
  hwx1_0 : ∀ i : grid1.Coords, EltTy.bits .f32 = 32 ∨ (Rect.block (s := S4x512) S4x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x32768.size a ≤ S4x32768.size a
  hwx1_1 : ∀ i : grid1.Coords, EltTy.bits .f32 = 32 ∨ (Rect.block (s := S4x32768) S4x32768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x32768.size a ≤ S8x16777216.size a
  hwx1_2 : ∀ i : grid1.Coords, EltTy.bits .f32 = 32 ∨ (Rect.block (s := S8x16777216) S8x32768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4x8.size a ≤ S2x4x8.size a
  hwx1_3 : ∀ i : grid1.Coords, EltTy.bits .f32 = 32 ∨ (Rect.block (s := S2x4x8) S1x4x8.size (cc1_transform_3 i) (hinb1_3 i)).WholeWords (EltTy.packing .f32)

variable [Facts₀]

def dot_S4x8_S8x8_S4x8_1_0_0_1_n_n : DotDims S4x8 S8x8 S4x8 where
  lhsContracting := [1]
  rhsContracting := [0]
  lhsNonContracting := [0]
  rhsNonContracting := [1]
  lhsBatch := []
  rhsBatch := []
  wf := dot_S4x8_S8x8_S4x8_1_0_0_1_n_n_wf
def dot_S4x64_S64x8_S4x8_1_0_0_1_n_n : DotDims S4x64 S64x8 S4x8 where
  lhsContracting := [1]
  rhsContracting := [0]
  lhsNonContracting := [0]
  rhsNonContracting := [1]
  lhsBatch := []
  rhsBatch := []
  wf := dot_S4x64_S64x8_S4x8_1_0_0_1_n_n_wf
def dot_S4x512_S512x8_S4x8_1_0_0_1_n_n : DotDims S4x512 S512x8 S4x8 where
  lhsContracting := [1]
  rhsContracting := [0]
  lhsNonContracting := [0]
  rhsNonContracting := [1]
  lhsBatch := []
  rhsBatch := []
  wf := dot_S4x512_S512x8_S4x8_1_0_0_1_n_n_wf
def dot_S4x4096_S4096x8_S4x8_1_0_0_1_n_n : DotDims S4x4096 S4096x8 S4x8 where
  lhsContracting := [1]
  rhsContracting := [0]
  lhsNonContracting := [0]
  rhsNonContracting := [1]
  lhsBatch := []
  rhsBatch := []
  wf := dot_S4x4096_S4096x8_S4x8_1_0_0_1_n_n_wf
def dot_S4x32768_S32768x8_S4x8_1_0_0_1_n_n : DotDims S4x32768 S32768x8 S4x8 where
  lhsContracting := [1]
  rhsContracting := [0]
  lhsNonContracting := [0]
  rhsNonContracting := [1]
  lhsBatch := []
  rhsBatch := []
  wf := dot_S4x32768_S32768x8_S4x8_1_0_0_1_n_n_wf
def dot_S4x262144_S262144x8_S4x8_1_0_0_1_n_n : DotDims S4x262144 S262144x8 S4x8 where
  lhsContracting := [1]
  rhsContracting := [0]
  lhsNonContracting := [0]
  rhsNonContracting := [1]
  lhsBatch := []
  rhsBatch := []
  wf := dot_S4x262144_S262144x8_S4x8_1_0_0_1_n_n_wf
def dot_S4x32768_S8x32768_S4x8_1_1_0_0_n_n : DotDims S4x32768 S8x32768 S4x8 where
  lhsContracting := [1]
  rhsContracting := [1]
  lhsNonContracting := [0]
  rhsNonContracting := [0]
  lhsBatch := []
  rhsBatch := []
  wf := dot_S4x32768_S8x32768_S4x8_1_1_0_0_n_n_wf

abbrev win0_0 : Pipeline.Window sig grid0 :=
  Pipeline.Window.ofSpec (Memref.whole main_v5) S4x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v23) S4x32768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S8x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v50) S1x4x8.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S4x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v23) S4x32768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S8x32768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1x4x8.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x8 : Shape := ⟨2, ![4, 8]⟩
abbrev S8 : Shape := ⟨1, ![8]⟩
abbrev S8x8 : Shape := ⟨2, ![8, 8]⟩
abbrev S8x64 : Shape := ⟨2, ![8, 64]⟩
abbrev S8x512 : Shape := ⟨2, ![8, 512]⟩
abbrev S8x4096 : Shape := ⟨2, ![8, 4096]⟩
abbrev S8x32768 : Shape := ⟨2, ![8, 32768]⟩
abbrev S8x262144 : Shape := ⟨2, ![8, 262144]⟩
abbrev S8x2097152 : Shape := ⟨2, ![8, 2097152]⟩
abbrev S8x16777216 : Shape := ⟨2, ![8, 16777216]⟩
abbrev S1x8 : Shape := ⟨2, ![1, 8]⟩
abbrev S4x8x1 : Shape := ⟨3, ![4, 8, 1]⟩
abbrev S4x1x8 : Shape := ⟨3, ![4, 1, 8]⟩
abbrev S4x8x8 : Shape := ⟨3, ![4, 8, 8]⟩
abbrev S4x64 : Shape := ⟨2, ![4, 64]⟩
abbrev S64x8 : Shape := ⟨2, ![64, 8]⟩
abbrev S4x1x64 : Shape := ⟨3, ![4, 1, 64]⟩
abbrev S4x8x64 : Shape := ⟨3, ![4, 8, 64]⟩
abbrev S4x512 : Shape := ⟨2, ![4, 512]⟩
abbrev S512x8 : Shape := ⟨2, ![512, 8]⟩
abbrev S4x1x512 : Shape := ⟨3, ![4, 1, 512]⟩
abbrev S4x8x512 : Shape := ⟨3, ![4, 8, 512]⟩
abbrev S4x4096 : Shape := ⟨2, ![4, 4096]⟩
abbrev S4096x8 : Shape := ⟨2, ![4096, 8]⟩
abbrev S4x1x4096 : Shape := ⟨3, ![4, 1, 4096]⟩
abbrev S4x8x4096 : Shape := ⟨3, ![4, 8, 4096]⟩
abbrev S4x32768 : Shape := ⟨2, ![4, 32768]⟩
abbrev S32768x8 : Shape := ⟨2, ![32768, 8]⟩
abbrev S4x1x32768 : Shape := ⟨3, ![4, 1, 32768]⟩
abbrev S4x8x32768 : Shape := ⟨3, ![4, 8, 32768]⟩
abbrev S4x262144 : Shape := ⟨2, ![4, 262144]⟩
abbrev S262144x8 : Shape := ⟨2, ![262144, 8]⟩
abbrev S4x1x262144 : Shape := ⟨3, ![4, 1, 262144]⟩
abbrev S4x8x262144 : Shape := ⟨3, ![4, 8, 262144]⟩
abbrev S4x2097152 : Shape := ⟨2, ![4, 2097152]⟩
abbrev S2097152x8 : Shape := ⟨2, ![2097152, 8]⟩
abbrev S4x1x2097152 : Shape := ⟨3, ![4, 1, 2097152]⟩
abbrev S4x8x2097152 : Shape := ⟨3, ![4, 8, 2097152]⟩
abbrev S4x16777216 : Shape := ⟨2, ![4, 16777216]⟩
abbrev S16777216x8 : Shape := ⟨2, ![16777216, 8]⟩

abbrev nBuf : Space → Nat
  | .hbm => 78
  | .vmem => 0
  | .smem => 0
  | _ => 0

abbrev bufTy : (tb : Table) → Fin (tcTables nBuf tb) → BufTy
  | .hbm, ⟨0, _⟩ => ⟨S4x8, .f32⟩
  | .hbm, ⟨1, _⟩ => ⟨S8, .f32⟩
  | .hbm, ⟨2, _⟩ => ⟨S8x8, .f32⟩
  | .hbm, ⟨3, _⟩ => ⟨S8x64, .f32⟩
  | .hbm, ⟨4, _⟩ => ⟨S8x512, .f32⟩
  | .hbm, ⟨5, _⟩ => ⟨S8x4096, .f32⟩
  | .hbm, ⟨6, _⟩ => ⟨S8x32768, .f32⟩
  | .hbm, ⟨7, _⟩ => ⟨S8x262144, .f32⟩
  | .hbm, ⟨8, _⟩ => ⟨S8x2097152, .f32⟩
  | .hbm, ⟨9, _⟩ => ⟨S8x16777216, .f32⟩
  | .hbm, ⟨10, _⟩ => ⟨S1x8, .f32⟩
  | .hbm, ⟨11, _⟩ => ⟨S4x8, .f32⟩
  | .hbm, ⟨12, _⟩ => ⟨S8x8, .f32⟩
  | .hbm, ⟨13, _⟩ => ⟨S4x8, .f32⟩
  | .hbm, ⟨14, _⟩ => ⟨S4x8, .f32⟩
  | .hbm, ⟨15, _⟩ => ⟨S4x8x1, .f32⟩
  | .hbm, ⟨16, _⟩ => ⟨S4x1x8, .f32⟩
  | .hbm, ⟨17, _⟩ => ⟨S4x8x8, .f32⟩
  | .hbm, ⟨18, _⟩ => ⟨S4x8x8, .f32⟩
  | .hbm, ⟨19, _⟩ => ⟨S4x8x8, .f32⟩
  | .hbm, ⟨20, _⟩ => ⟨S4x64, .f32⟩
  | .hbm, ⟨21, _⟩ => ⟨S64x8, .f32⟩
  | .hbm, ⟨22, _⟩ => ⟨S4x8, .f32⟩
  | .hbm, ⟨23, _⟩ => ⟨S4x8, .f32⟩
  | .hbm, ⟨24, _⟩ => ⟨S4x8x1, .f32⟩
  | .hbm, ⟨25, _⟩ => ⟨S4x1x64, .f32⟩
  | .hbm, ⟨26, _⟩ => ⟨S4x8x64, .f32⟩
  | .hbm, ⟨27, _⟩ => ⟨S4x8x64, .f32⟩
  | .hbm, ⟨28, _⟩ => ⟨S4x8x64, .f32⟩
  | .hbm, ⟨29, _⟩ => ⟨S4x512, .f32⟩
  | .hbm, ⟨30, _⟩ => ⟨S512x8, .f32⟩
  | .hbm, ⟨31, _⟩ => ⟨S4x8, .f32⟩
  | .hbm, ⟨32, _⟩ => ⟨S4x8, .f32⟩
  | .hbm, ⟨33, _⟩ => ⟨S4x8x1, .f32⟩
  | .hbm, ⟨34, _⟩ => ⟨S4x1x512, .f32⟩
  | .hbm, ⟨35, _⟩ => ⟨S4x8x512, .f32⟩
  | .hbm, ⟨36, _⟩ => ⟨S4x8x512, .f32⟩
  | .hbm, ⟨37, _⟩ => ⟨S4x8x512, .f32⟩
  | .hbm, ⟨38, _⟩ => ⟨S4x4096, .f32⟩
  | .hbm, ⟨39, _⟩ => ⟨S4096x8, .f32⟩
  | .hbm, ⟨40, _⟩ => ⟨S4x8, .f32⟩
  | .hbm, ⟨41, _⟩ => ⟨S4x8, .f32⟩
  | .hbm, ⟨42, _⟩ => ⟨S4x8x1, .f32⟩
  | .hbm, ⟨43, _⟩ => ⟨S4x1x4096, .f32⟩
  | .hbm, ⟨44, _⟩ => ⟨S4x8x4096, .f32⟩
  | .hbm, ⟨45, _⟩ => ⟨S4x8x4096, .f32⟩
  | .hbm, ⟨46, _⟩ => ⟨S4x8x4096, .f32⟩
  | .hbm, ⟨47, _⟩ => ⟨S4x32768, .f32⟩
  | .hbm, ⟨48, _⟩ => ⟨S32768x8, .f32⟩
  | .hbm, ⟨49, _⟩ => ⟨S4x8, .f32⟩
  | .hbm, ⟨50, _⟩ => ⟨S4x8, .f32⟩
  | .hbm, ⟨51, _⟩ => ⟨S4x8x1, .f32⟩
  | .hbm, ⟨52, _⟩ => ⟨S4x1x32768, .f32⟩
  | .hbm, ⟨53, _⟩ => ⟨S4x8x32768, .f32⟩
  | .hbm, ⟨54, _⟩ => ⟨S4x8x32768, .f32⟩
  | .hbm, ⟨55, _⟩ => ⟨S4x8x32768, .f32⟩
  | .hbm, ⟨56, _⟩ => ⟨S4x262144, .f32⟩
  | .hbm, ⟨57, _⟩ => ⟨S262144x8, .f32⟩
  | .hbm, ⟨58, _⟩ => ⟨S4x8, .f32⟩
  | .hbm, ⟨59, _⟩ => ⟨S4x8, .f32⟩
  | .hbm, ⟨60, _⟩ => ⟨S4x8x1, .f32⟩
  | .hbm, ⟨61, _⟩ => ⟨S4x1x262144, .f32⟩
  | .hbm, ⟨62, _⟩ => ⟨S4x8x262144, .f32⟩
  | .hbm, ⟨63, _⟩ => ⟨S4x8x262144, .f32⟩
  | .hbm, ⟨64, _⟩ => ⟨S4x8x262144, .f32⟩
  | .hbm, ⟨65, _⟩ => ⟨S4x2097152, .f32⟩
  | .hbm, ⟨66, _⟩ => ⟨S2097152x8, .f32⟩
  | .hbm, ⟨67, _⟩ => ⟨S4x8, .f32⟩
  | .hbm, ⟨68, _⟩ => ⟨S4x8, .f32⟩
  | .hbm, ⟨69, _⟩ => ⟨S4x8x1, .f32⟩
  | .hbm, ⟨70, _⟩ => ⟨S4x1x2097152, .f32⟩
  | .hbm, ⟨71, _⟩ => ⟨S4x8x2097152, .f32⟩
  | .hbm, ⟨72, _⟩ => ⟨S4x8x2097152, .f32⟩
  | .hbm, ⟨73, _⟩ => ⟨S4x8x2097152, .f32⟩
  | .hbm, ⟨74, _⟩ => ⟨S4x16777216, .f32⟩
  | .hbm, ⟨75, _⟩ => ⟨S16777216x8, .f32⟩
  | .hbm, ⟨76, _⟩ => ⟨S4x8, .f32⟩
  | .hbm, ⟨77, _⟩ => ⟨S4x8, .f32⟩
  | _, _ => ⟨S4x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩

abbrev nD : Nat := 1
abbrev τ : Topo := Topo.v7x

variable {F : FTy → Type} [FloatOps F]

class Facts₀ : Prop where
  bcast_S8_S1x8_1 : S8.BroadcastsInDim S1x8 (![1] : Fin 1 → Fin S1x8.rank)
  bcast_S1x8_S4x8_0_1 : S1x8.BroadcastsInDim S4x8 (![0, 1] : Fin 2 → Fin S4x8.rank)
  transposes_S8x8_S8x8_1_0 : S8x8.Transposes [1, 0] S8x8
  bcast_S4x8_S4x8x1_0_1 : S4x8.BroadcastsInDim S4x8x1 (![0, 1] : Fin 2 → Fin S4x8x1.rank)
  bcast_S4x8_S4x1x8_0_2 : S4x8.BroadcastsInDim S4x1x8 (![0, 2] : Fin 2 → Fin S4x1x8.rank)
  bcast_S4x8x1_S4x8x8_0_1_2 : S4x8x1.BroadcastsInDim S4x8x8 (![0, 1, 2] : Fin 3 → Fin S4x8x8.rank)
  bcast_S4x1x8_S4x8x8_0_1_2 : S4x1x8.BroadcastsInDim S4x8x8 (![0, 1, 2] : Fin 3 → Fin S4x8x8.rank)
  shapeCasts_S4x8x8_S4x64 : S4x8x8.ShapeCasts S4x64
  transposes_S8x64_S64x8_1_0 : S8x64.Transposes [1, 0] S64x8
  bcast_S4x64_S4x1x64_0_2 : S4x64.BroadcastsInDim S4x1x64 (![0, 2] : Fin 2 → Fin S4x1x64.rank)
  bcast_S4x8x1_S4x8x64_0_1_2 : S4x8x1.BroadcastsInDim S4x8x64 (![0, 1, 2] : Fin 3 → Fin S4x8x64.rank)
  bcast_S4x1x64_S4x8x64_0_1_2 : S4x1x64.BroadcastsInDim S4x8x64 (![0, 1, 2] : Fin 3 → Fin S4x8x64.rank)
  shapeCasts_S4x8x64_S4x512 : S4x8x64.ShapeCasts S4x512
  transposes_S8x512_S512x8_1_0 : S8x512.Transposes [1, 0] S512x8
  bcast_S4x512_S4x1x512_0_2 : S4x512.BroadcastsInDim S4x1x512 (![0, 2] : Fin 2 → Fin S4x1x512.rank)
  bcast_S4x8x1_S4x8x512_0_1_2 : S4x8x1.BroadcastsInDim S4x8x512 (![0, 1, 2] : Fin 3 → Fin S4x8x512.rank)
  bcast_S4x1x512_S4x8x512_0_1_2 : S4x1x512.BroadcastsInDim S4x8x512 (![0, 1, 2] : Fin 3 → Fin S4x8x512.rank)
  shapeCasts_S4x8x512_S4x4096 : S4x8x512.ShapeCasts S4x4096
  transposes_S8x4096_S4096x8_1_0 : S8x4096.Transposes [1, 0] S4096x8
  bcast_S4x4096_S4x1x4096_0_2 : S4x4096.BroadcastsInDim S4x1x4096 (![0, 2] : Fin 2 → Fin S4x1x4096.rank)
  bcast_S4x8x1_S4x8x4096_0_1_2 : S4x8x1.BroadcastsInDim S4x8x4096 (![0, 1, 2] : Fin 3 → Fin S4x8x4096.rank)
  bcast_S4x1x4096_S4x8x4096_0_1_2 : S4x1x4096.BroadcastsInDim S4x8x4096 (![0, 1, 2] : Fin 3 → Fin S4x8x4096.rank)
  shapeCasts_S4x8x4096_S4x32768 : S4x8x4096.ShapeCasts S4x32768
  transposes_S8x32768_S32768x8_1_0 : S8x32768.Transposes [1, 0] S32768x8
  bcast_S4x32768_S4x1x32768_0_2 : S4x32768.BroadcastsInDim S4x1x32768 (![0, 2] : Fin 2 → Fin S4x1x32768.rank)
  bcast_S4x8x1_S4x8x32768_0_1_2 : S4x8x1.BroadcastsInDim S4x8x32768 (![0, 1, 2] : Fin 3 → Fin S4x8x32768.rank)
  bcast_S4x1x32768_S4x8x32768_0_1_2 : S4x1x32768.BroadcastsInDim S4x8x32768 (![0, 1, 2] : Fin 3 → Fin S4x8x32768.rank)
  shapeCasts_S4x8x32768_S4x262144 : S4x8x32768.ShapeCasts S4x262144
  transposes_S8x262144_S262144x8_1_0 : S8x262144.Transposes [1, 0] S262144x8
  bcast_S4x262144_S4x1x262144_0_2 : S4x262144.BroadcastsInDim S4x1x262144 (![0, 2] : Fin 2 → Fin S4x1x262144.rank)
  bcast_S4x8x1_S4x8x262144_0_1_2 : S4x8x1.BroadcastsInDim S4x8x262144 (![0, 1, 2] : Fin 3 → Fin S4x8x262144.rank)
  bcast_S4x1x262144_S4x8x262144_0_1_2 : S4x1x262144.BroadcastsInDim S4x8x262144 (![0, 1, 2] : Fin 3 → Fin S4x8x262144.rank)
  shapeCasts_S4x8x262144_S4x2097152 : S4x8x262144.ShapeCasts S4x2097152
  transposes_S8x2097152_S2097152x8_1_0 : S8x2097152.Transposes [1, 0] S2097152x8
  bcast_S4x2097152_S4x1x2097152_0_2 : S4x2097152.BroadcastsInDim S4x1x2097152 (![0, 2] : Fin 2 → Fin S4x1x2097152.rank)
  bcast_S4x8x1_S4x8x2097152_0_1_2 : S4x8x1.BroadcastsInDim S4x8x2097152 (![0, 1, 2] : Fin 3 → Fin S4x8x2097152.rank)
  bcast_S4x1x2097152_S4x8x2097152_0_1_2 : S4x1x2097152.BroadcastsInDim S4x8x2097152 (![0, 1, 2] : Fin 3 → Fin S4x8x2097152.rank)
  shapeCasts_S4x8x2097152_S4x16777216 : S4x8x2097152.ShapeCasts S4x16777216
  transposes_S8x16777216_S16777216x8_1_0 : S8x16777216.Transposes [1, 0] S16777216x8
  dot_S4x8_S8x8_S4x8_1_0_0_1_n_n_wf : DotDims.WF S4x8 S8x8 S4x8 [1] [0] [0] [1] [] []
  dot_S4x64_S64x8_S4x8_1_0_0_1_n_n_wf : DotDims.WF S4x64 S64x8 S4x8 [1] [0] [0] [1] [] []
  dot_S4x512_S512x8_S4x8_1_0_0_1_n_n_wf : DotDims.WF S4x512 S512x8 S4x8 [1] [0] [0] [1] [] []
  dot_S4x4096_S4096x8_S4x8_1_0_0_1_n_n_wf : DotDims.WF S4x4096 S4096x8 S4x8 [1] [0] [0] [1] [] []
  dot_S4x32768_S32768x8_S4x8_1_0_0_1_n_n_wf : DotDims.WF S4x32768 S32768x8 S4x8 [1] [0] [0] [1] [] []
  dot_S4x262144_S262144x8_S4x8_1_0_0_1_n_n_wf : DotDims.WF S4x262144 S262144x8 S4x8 [1] [0] [0] [1] [] []
  dot_S4x2097152_S2097152x8_S4x8_1_0_0_1_n_n_wf : DotDims.WF S4x2097152 S2097152x8 S4x8 [1] [0] [0] [1] [] []
  dot_S4x16777216_S16777216x8_S4x8_1_0_0_1_n_n_wf : DotDims.WF S4x16777216 S16777216x8 S4x8 [1] [0] [0] [1] [] []

variable [Facts₀]

def dot_S4x8_S8x8_S4x8_1_0_0_1_n_n : DotDims S4x8 S8x8 S4x8 where
  lhsContracting := [1]
  rhsContracting := [0]
  lhsNonContracting := [0]
  rhsNonContracting := [1]
  lhsBatch := []
  rhsBatch := []
  wf := dot_S4x8_S8x8_S4x8_1_0_0_1_n_n_wf
def dot_S4x64_S64x8_S4x8_1_0_0_1_n_n : DotDims S4x64 S64x8 S4x8 where
  lhsContracting := [1]
  rhsContracting := [0]
  lhsNonContracting := [0]
  rhsNonContracting := [1]
  lhsBatch := []
  rhsBatch := []
  wf := dot_S4x64_S64x8_S4x8_1_0_0_1_n_n_wf
def dot_S4x512_S512x8_S4x8_1_0_0_1_n_n : DotDims S4x512 S512x8 S4x8 where
  lhsContracting := [1]
  rhsContracting := [0]
  lhsNonContracting := [0]
  rhsNonContracting := [1]
  lhsBatch := []
  rhsBatch := []
  wf := dot_S4x512_S512x8_S4x8_1_0_0_1_n_n_wf
def dot_S4x4096_S4096x8_S4x8_1_0_0_1_n_n : DotDims S4x4096 S4096x8 S4x8 where
  lhsContracting := [1]
  rhsContracting := [0]
  lhsNonContracting := [0]
  rhsNonContracting := [1]
  lhsBatch := []
  rhsBatch := []
  wf := dot_S4x4096_S4096x8_S4x8_1_0_0_1_n_n_wf
def dot_S4x32768_S32768x8_S4x8_1_0_0_1_n_n : DotDims S4x32768 S32768x8 S4x8 where
  lhsContracting := [1]
  rhsContracting := [0]
  lhsNonContracting := [0]
  rhsNonContracting := [1]
  lhsBatch := []
  rhsBatch := []
  wf := dot_S4x32768_S32768x8_S4x8_1_0_0_1_n_n_wf
def dot_S4x262144_S262144x8_S4x8_1_0_0_1_n_n : DotDims S4x262144 S262144x8 S4x8 where
  lhsContracting := [1]
  rhsContracting := [0]
  lhsNonContracting := [0]
  rhsNonContracting := [1]
  lhsBatch := []
  rhsBatch := []
  wf := dot_S4x262144_S262144x8_S4x8_1_0_0_1_n_n_wf
def dot_S4x2097152_S2097152x8_S4x8_1_0_0_1_n_n : DotDims S4x2097152 S2097152x8 S4x8 where
  lhsContracting := [1]
  rhsContracting := [0]
  lhsNonContracting := [0]
  rhsNonContracting := [1]
  lhsBatch := []
  rhsBatch := []
  wf := dot_S4x2097152_S2097152x8_S4x8_1_0_0_1_n_n_wf
def dot_S4x16777216_S16777216x8_S4x8_1_0_0_1_n_n : DotDims S4x16777216 S16777216x8 S4x8 where
  lhsContracting := [1]
  rhsContracting := [0]
  lhsNonContracting := [0]
  rhsNonContracting := [1]
  lhsBatch := []
  rhsBatch := []
  wf := dot_S4x16777216_S16777216x8_S4x8_1_0_0_1_n_n_wf

class Facts : Prop extends Facts₀ where

variable [Facts]
-- ==== Proof.KernelRun.lean ====
/-
  The idealized kernel program run from the launch memory to its return, with the result buffer read.

  @main is five segments: the host operations that build the Kronecker powers of the rows of X up to the sixth and add
  the bias and the six direct terms; the first tiled product (degree 7); a sum over its two halves added to the running
  total; the second tiled product (degree 8); the same closing sum.  The buffer contents at each segment boundary are
  a fold through @main; this file reads the result buffer at the last boundary and unfolds it one stretch at a time
  down to (i) the running total of the direct terms, (ii) what each tiled product leaves in its result array, and
  (iii) the arrays each tiled product is entered with.  The host operations before the first region are, term for
  term, the reference's own stages, so (i) and (iii) are stated with the reference's names.
-/
import proofs.«131565_j2130303779115_2_alg».proof.Proof.Gen.KernelIdeal.Frame
import proofs.«131565_j2130303779115_2_alg».proof.Proof.Gen.ReferenceIdeal.Read
import Idealize.ShloMosaic.Lib.StableHlo.Run

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run, with the result buffer read

  Every weakly fair execution of @main ends with the result buffer at the last boundary's contents — the host's
  three closing operations applied to what the second region leaves — and every argument as launched. -/

set_option backward.isDefEq.respectTransparency.types false in
theorem run_value : θ_run defs (onTc (τ := τ) (main (F := F))) ⟨m, fun _ => 0, ρ⟩ (fun r => ∀ c : Dev nD,
      r.2.mem ((c.tc : Thread nD τ).loc main_v55) = W5 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v55 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

/-! ## The boundary contents, unfolded one stretch of host operations at a time -/

/-- The result: the running total after the first region plus the two halves the second region leaves, summed from zero. -/
theorem W5_v55 (c : Dev nD) : W5 m ρ c (Proc.devRef .tc main_v55)
    = addf (W4 m ρ c (Proc.devRef .tc main_v52))
        (Host.reduceAdd (W4 m ρ c (Proc.devRef .tc main_v53)) (constant (F := F) S_ .f32 0x00000000#32) reducesTo_S2x4x8_S4x8_d0 h_S_) := by
  show StableHlo.after hostOps2 (W4 m ρ c) (Proc.devRef .tc main_v55) = _
  after_results

/-- The running total entering the second region: the six direct terms plus the two halves the first region leaves. -/
theorem W3_v52 (c : Dev nD) : W3 m ρ c (Proc.devRef .tc main_v52)
    = addf (W2 m ρ c (Proc.devRef .tc main_v49))
        (Host.reduceAdd (W2 m ρ c (Proc.devRef .tc main_v50)) (constant (F := F) S_ .f32 0x00000000#32) reducesTo_S2x4x8_S4x8_d0 h_S_) := by
  show StableHlo.after hostOps1 (W2 m ρ c) (Proc.devRef .tc main_v52) = _
  after_results

/-- The second region writes none of the buffers the closing operations read besides its own result. -/
theorem W4_v52 (c : Dev nD) : W4 m ρ c (Proc.devRef .tc main_v52) = W3 m ρ c (Proc.devRef .tc main_v52) :=
  W4_of_ne m ρ c main_v52 (by decide)

theorem W2_v49 (c : Dev nD) : W2 m ρ c (Proc.devRef .tc main_v49) = W1 m ρ c (Proc.devRef .tc main_v49) :=
  W2_of_ne m ρ c main_v49 (by decide)

/-- The second region's operands as it finds them: the host operations between the regions write none of them, and
    neither does the first region. -/
theorem W3_v11 (c : Dev nD) : W3 m ρ c (Proc.devRef .tc main_v11) = W1 m ρ c (Proc.devRef .tc main_v11) := by
  have e : W3 m ρ c (Proc.devRef .tc main_v11) = W2 m ρ c (Proc.devRef .tc main_v11) := by
    show StableHlo.after hostOps1 (W2 m ρ c) (Proc.devRef .tc main_v11) = _
    after_results
  exact e.trans (W2_of_ne m ρ c main_v11 (by decide))
theorem W3_v23 (c : Dev nD) : W3 m ρ c (Proc.devRef .tc main_v23) = W1 m ρ c (Proc.devRef .tc main_v23) := by
  have e : W3 m ρ c (Proc.devRef .tc main_v23) = W2 m ρ c (Proc.devRef .tc main_v23) := by
    show StableHlo.after hostOps1 (W2 m ρ c) (Proc.devRef .tc main_v23) = _
    after_results
  exact e.trans ((W2_arr m ρ c 1).trans (((dat0 (V1 m ρ) c).arrAt_in 1 rfl _).trans (A_eq0 (V1 m ρ) c 1)))
theorem W3_arg9 (c : Dev nD) : W3 m ρ c (Proc.devRef .tc main_arg9) = W1 m ρ c (Proc.devRef .tc main_arg9) := by
  have e : W3 m ρ c (Proc.devRef .tc main_arg9) = W2 m ρ c (Proc.devRef .tc main_arg9) := by
    show StableHlo.after hostOps1 (W2 m ρ c) (Proc.devRef .tc main_arg9) = _
    after_results
  exact e.trans (W2_of_ne m ρ c main_arg9 (by decide))

/-! ## The host operations before the first region are the reference's own

  The Kronecker powers of the rows of `X` up to the sixth and the bias plus the six direct terms are computed by the
  same operations, in the same order of dependence, as in the reference: the terms are the reference's stages. -/

open Cert.ReferenceIdeal.Read in
theorem W1_v5 (c : Dev nD) : W1 m ρ c (Proc.devRef .tc main_v5) = val_main_v10 (F := F) (m ((c : Thread nD τ).loc main_arg0)) := by
  show StableHlo.after hostOps0 (W0 m ρ c) (Proc.devRef .tc main_v5) = _
  after_results_simp
  rfl

open Cert.ReferenceIdeal.Read in
theorem W1_v11 (c : Dev nD) : W1 m ρ c (Proc.devRef .tc main_v11) = val_main_v19 (F := F) (m ((c : Thread nD τ).loc main_arg0)) := by
  show StableHlo.after hostOps0 (W0 m ρ c) (Proc.devRef .tc main_v11) = _
  after_results_simp
  rfl
open Cert.ReferenceIdeal.Read in
theorem W1_v23 (c : Dev nD) : W1 m ρ c (Proc.devRef .tc main_v23) = val_main_v37 (F := F) (m ((c : Thread nD τ).loc main_arg0)) := by
  show StableHlo.after hostOps0 (W0 m ρ c) (Proc.devRef .tc main_v23) = _
  after_results_simp
  rfl
theorem W1_arg8 (c : Dev nD) : W1 m ρ c (Proc.devRef .tc main_arg8) = m ((c : Thread nD τ).loc main_arg8) := by
  show StableHlo.after hostOps0 (W0 m ρ c) (Proc.devRef .tc main_arg8) = _
  after_results_simp
theorem W1_arg9 (c : Dev nD) : W1 m ρ c (Proc.devRef .tc main_arg9) = m ((c : Thread nD τ).loc main_arg9) := by
  show StableHlo.after hostOps0 (W0 m ρ c) (Proc.devRef .tc main_arg9) = _
  after_results_simp
open Cert.ReferenceIdeal.Read in
/-- The bias plus the six direct terms. -/
theorem W1_v49 (c : Dev nD) : W1 m ρ c (Proc.devRef .tc main_v49)
    = val_main_v49 (F := F) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  show StableHlo.after hostOps0 (W0 m ρ c) (Proc.devRef .tc main_v49) = _
  after_results_simp
  rfl

end Cert.KernelIdeal.KernelRun

end
-- ==== Proof.LibERealSums.lean ====
/-
  General facts about finite sums and maxima of real numbers read inside the extended reals, and the
  splitting of a sum over `Fin (m * n)` into `m` consecutive blocks of `n` terms.
-/
import Mathlib.Data.EReal.Operations
import Mathlib.Algebra.BigOperators.Fin
import Mathlib.Data.Finset.Fold
import Mathlib.Logic.Equiv.Fin.Basic

namespace Cert.LibERealSums

open Finset

/-- The coercion of a finite sum of reals is the sum of the coercions: every partial sum is finite, so
    no infinity is ever met. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is (the coercion of) a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The maximum of a nonempty finite family of reals, folded from minus infinity inside the extended
    reals, is a real: it is at least one member of the family, hence not `⊥`, and every member and the
    start value are below `⊤`, hence it is not `⊤`. -/
theorem fold_max_bot_coe {ι : Type*} (s : Finset ι) (hs : s.Nonempty) (f : ι → ℝ) :
    ∃ m : ℝ, s.fold max (⊥ : EReal) (fun i => (f i : EReal)) = (m : EReal) := by
  obtain ⟨i₀, hi₀⟩ := hs
  have hlt : s.fold max (⊥ : EReal) (fun i => (f i : EReal)) < ⊤ :=
    (Finset.fold_max_lt _).mpr ⟨bot_lt_top, fun x _ => EReal.coe_lt_top (f x)⟩
  have hge : ((f i₀ : ℝ) : EReal) ≤ s.fold max (⊥ : EReal) (fun i => (f i : EReal)) :=
    (Finset.le_fold_max _).mpr (Or.inr ⟨i₀, hi₀, le_refl _⟩)
  have hne_bot : s.fold max (⊥ : EReal) (fun i => (f i : EReal)) ≠ ⊥ :=
    ne_of_gt (lt_of_lt_of_le (EReal.bot_lt_coe (f i₀)) hge)
  exact ⟨_, (EReal.coe_toReal (ne_of_lt hlt) hne_bot).symm⟩

/-- A sum over `Fin N`, with `N = m * n`, is the sum over the `m` blocks of `n` consecutive indices:
    `row k r` is the index `n * k + r`. -/
theorem sum_fin_blocks {M : Type*} [AddCommMonoid M] {m n N : ℕ} (hN : m * n = N)
    (row : Fin m → Fin n → Fin N) (hrow : ∀ k r, (row k r).val = n * k.val + r.val) (f : Fin N → M) :
    ∑ c : Fin N, f c = ∑ k : Fin m, ∑ r : Fin n, f (row k r) := by
  subst hN
  rw [← Equiv.sum_comp finProdFinEquiv f, Fintype.sum_prod_type]
  refine Finset.sum_congr rfl fun k _ => Finset.sum_congr rfl fun r _ => ?_
  refine congrArg f (Fin.ext ?_)
  rw [hrow k r]
  exact Nat.add_comm _ _

end Cert.LibERealSums
-- ==== Proof.KronSpec.lean ====
/-
  The one algebraic law that joins the two programs, over the extended reals.

  A row of the n-th Kronecker power of a vector x, cut into blocks of T = 8⁵ consecutive entries, is in block G the
  row of the fifth power scaled by the G-th entry of the (n − 5)-th power: K(T·G + l) = P(G)·L(l).  So the
  contraction of K with a coefficient row C, Σ_k K(k)·C(k), is the sum over the blocks G — themselves grouped in two
  halves of B blocks, G = B·a + b — of the block products Σ_l (L(l)·P(G))·C(T·G + l).  Only the commutative-monoid
  laws of + and · on the extended reals are used, so the law holds at infinite entries too.
-/
import Mathlib.Data.EReal.Operations
import Mathlib.Data.EReal.Inv
import proofs.«131565_j2130303779115_2_alg».proof.Proof.LibERealSums

namespace Cert.KronSpec

open Finset

/-- The block number of the `b`-th block of half `a`, for the degree-7 term: 32 blocks per half. -/
def gIdx7 (a : Fin 2) (b : Fin 32) : Fin 64 := ⟨32 * a.val + b.val, by have := a.isLt; have := b.isLt; omega⟩
/-- Entry `l` of block `G` of a row of the seventh power. -/
def kIdx7 (G : Fin 64) (l : Fin 32768) : Fin 2097152 := ⟨32768 * G.val + l.val, by have := G.isLt; have := l.isLt; omega⟩
/-- The block number of the `b`-th block of half `a`, for the degree-8 term: 256 blocks per half. -/
def gIdx8 (a : Fin 2) (b : Fin 256) : Fin 512 := ⟨256 * a.val + b.val, by have := a.isLt; have := b.isLt; omega⟩
/-- Entry `l` of block `G` of a row of the eighth power. -/
def kIdx8 (G : Fin 512) (l : Fin 32768) : Fin 16777216 := ⟨32768 * G.val + l.val, by have := G.isLt; have := l.isLt; omega⟩

/-- The contraction of a blockwise product `K (T·G + l) = P G · L l` with `C`, regrouped by halves, blocks and
    entries within a block. -/
theorem contract {A B T M N : ℕ} (hM : A * B = M) (hN : M * T = N)
    (gIdx : Fin A → Fin B → Fin M) (hg : ∀ a b, (gIdx a b).val = B * a.val + b.val)
    (kIdx : Fin M → Fin T → Fin N) (hk : ∀ G l, (kIdx G l).val = T * G.val + l.val)
    (K C : Fin N → EReal) (P : Fin M → EReal) (L : Fin T → EReal) (hK : ∀ G l, K (kIdx G l) = P G * L l) :
    ∑ k, K k * C k = ∑ a, ∑ b, ∑ l, (L l * P (gIdx a b)) * C (kIdx (gIdx a b) l) := by
  rw [Cert.LibERealSums.sum_fin_blocks hN kIdx hk, Cert.LibERealSums.sum_fin_blocks hM gIdx hg]
  refine sum_congr rfl fun a _ => sum_congr rfl fun b _ => sum_congr rfl fun l _ => ?_
  rw [hK, mul_comm (P _) (L l)]

end Cert.KronSpec
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.LibAxisZero.lean ====
/-
  Reading a reduction over the FIRST axis of a matrix, and a one-entry matrix broadcast to a full one, at
  explicit coordinates.

  A reduction of an `[m, n]` array over its first axis has, at column `c`, the source indices `(k, c)`, `k < m`
  (with `n = 1` this is the total of a column `[m, 1]`). A `[1, 1]` array broadcast to `[a, b]` reads its one
  entry everywhere.
-/
import Idealize.ShloMosaic.PureOps.Reduce
import Idealize.ShloMosaic.Lib.ValueIdx
import Idealize.ShloMosaic.Lib.Pipeline.Value

noncomputable section

open Idealize.ShloMosaic Idealize.ShloMosaic.ValueIdx

namespace Cert.LibAxisZero

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

variable {α : Type}

/-- A `[1, 1]` array broadcast to `[a, b]` reads, anywhere, its one entry. -/
theorem bcast_one {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) :=
  broadcastTo_apply v h (ix2 p c) (ix2 (0 : Fin 1) (0 : Fin 1)) (fun ax => match ax with
    | ⟨0, _⟩ => by show 0 = (if (1 : ℕ) = 1 then 0 else p.val); rw [if_pos rfl]
    | ⟨1, _⟩ => by show 0 = (if (1 : ℕ) = 1 then 0 else c.val); rw [if_pos rfl])

end Cert.LibAxisZero

end
-- ==== Proof.LibMatrixReduce.lean ====
/-
  One-axis reductions of a matrix and the "kept axis" layouts that follow them, at the exact extended reals
  and at explicit coordinates.

  The sum of an `[m, n]` matrix along its second axis is, at row `r`, `Σ_c v (r, c)`; along its first axis, at
  column `c`, `Σ_k v (k, c)`; the maximum along the first axis is the fold of `max` over the column from the
  accumulator's value. A vector `[m]` recast as a column `[m, 1]` and broadcast to `[m, n]` reads the vector at
  the row; a vector `[n]` recast as a row `[1, n]` and broadcast to `[m, n]` reads it at the column.
-/
import proofs.«131565_j2130303779115_2_alg».proof.Proof.LibRows
import proofs.«131565_j2130303779115_2_alg».proof.Proof.LibAxisZero
import Idealize.ShloMosaic.Lib.ValueLayout

noncomputable section

open Idealize.ShloMosaic Idealize.ShloMosaic.ValueIdx

namespace Cert.LibMatrixReduce

/-- The sum along the second axis, at row `r`. -/
theorem rowSum_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.add.neutral .f32 hφ)
    (r : Fin m) :
    multiReduction .add [1] (⟨1, ![m]⟩ : Shape) v acc h hφ hacc (ix1 r) = ∑ c : Fin n, v (ix2 r c) := by
  rw [Ideal.multiReduction_add_single]
  exact Finset.sum_congr rfl fun k _ => congrArg v (Cert.Rows.lift_row h r k)

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (Cert.LibAxisZero.lift_col h c k)

/-- The maximum along the first axis, at column `c`: `max` folded over the column from the accumulator's value. -/
theorem colMax_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.maximumf.neutral .f32 hφ)
    (c : Fin n) :
    multiReduction .maximumf [0] (⟨1, ![n]⟩ : Shape) v acc h hφ hacc (ix1 c)
      = (Finset.univ : Finset (Fin m)).fold max (Ideal.ofBits .f32 acc) (fun k => v (ix2 k c)) := by
  rw [Ideal.multiReduction_maximumf_single]
  refine congrArg (fun f => (Finset.univ : Finset (Fin m)).fold max (Ideal.ofBits .f32 acc) f) (funext fun k => ?_)
  exact congrArg v (Cert.LibAxisZero.lift_col h c k)

variable {α : Type}

/-- A vector kept as a column and broadcast along the rows' entries reads the vector at the row. -/
theorem keptCol_apply {m n : ℕ} (hm : m ≠ 1) (u : (⟨1, ![m]⟩ : Shape).Idx → α)
    (h1 : (⟨1, ![m]⟩ : Shape).ShapeCasts ⟨2, ![m, 1]⟩) (h2 : (⟨2, ![m, 1]⟩ : Shape).Broadcasts ⟨2, ![m, n]⟩) (r : Fin m) (c : Fin n) :
    broadcastTo ⟨2, ![m, n]⟩ (shapeCast ⟨2, ![m, 1]⟩ u h1) h2 (ix2 r c) = u (ix1 r) := by
  rw [Cert.Rows.bcast_col hm, Cert.Rows.cast_col]

/-- A vector kept as a row and broadcast down the rows reads the vector at the column. -/
theorem keptRow_apply {m n : ℕ} (u : (⟨1, ![n]⟩ : Shape).Idx → α)
    (h1 : (⟨1, ![n]⟩ : Shape).ShapeCasts ⟨2, ![1, n]⟩) (h2 : (⟨2, ![1, n]⟩ : Shape).Broadcasts ⟨2, ![m, n]⟩) (r : Fin m) (c : Fin n) :
    broadcastTo ⟨2, ![m, n]⟩ (shapeCast ⟨2, ![1, n]⟩ u h1) h2 (ix2 r c) = u (ix1 c) := by
  rw [broadcastTo_1b_ab_apply, shapeCast_a_1a_apply]

end Cert.LibMatrixReduce

end
-- ==== Proof.Payload.lean ====
/-
  The two kernel bodies of the idealized program, read at an index at the exact extended reals.

  At grid point `(core, g)` a body forms the flat position `G = core * 32 + g` (the second kernel: `core * 256 + g`),
  the one-hot row `e(0, j) = [j = G]` as a float, the scale `s(r) = Σ_j prefix(r, j) * e(0, j) = prefix(r, G)`, the
  scaled tile `t(r, l) = local(r, l) * s(r)`, and adds to the accumulator block the product
  `Σ_l t(r, l) * coeff(p, l)`, both operands contracted along their second axis into a zero accumulator. The two
  changes of float format are the identity on extended reals. Only `x * 1 = x`, `x * 0 = 0` and `0 + x = x` are used,
  which hold for every extended real, so nothing here asks for finiteness. The first store's payload is the zero block.
-/
import proofs.«131565_j2130303779115_2_alg».proof.Proof.Gen.KernelIdeal.Skeleton
import proofs.«131565_j2130303779115_2_alg».proof.Proof.LibRows
import proofs.«131565_j2130303779115_2_alg».proof.Proof.LibMatrixReduce
import Idealize.ShloMosaic.Lib.ValueIdx
import Idealize.ShloMosaic.Lib.ValueLayout
import Idealize.ShloMosaic.Lib.Pipeline.Value
import Idealize.ShloMosaic.PureOps.Ideal.Laws

noncomputable section

namespace Cert.Payload

open Cert.KernelIdeal Cert.KernelIdeal.Gen Idealize.ShloMosaic Idealize.ShloMosaic.ValueIdx

/-! ## The block product, shared by both kernels -/

/-- The free coordinate of the left operand's index is the output row. -/
theorem lhs_free (i : S4x8.Idx) (q : dot_S4x32768_S8x32768_S4x8_1_1_0_0_n_n.contr.Idx) :
    (dot_S4x32768_S8x32768_S4x8_1_1_0_0_n_n.lhsIdx i q 0).val = (i 0).val := by
  unfold DotDims.lhsIdx
  rw [dif_neg (show ¬(0 : Fin S4x32768.rank) ∈ dot_S4x32768_S8x32768_S4x8_1_1_0_0_n_n.lhsBatch by decide),
    dif_pos (show (0 : Fin S4x32768.rank) ∈ dot_S4x32768_S8x32768_S4x8_1_1_0_0_n_n.lhsNonContracting by decide)]
  rfl

/-- The contracted coordinate of the left operand's index is the contraction position. -/
theorem lhs_contr (i : S4x8.Idx) (q : dot_S4x32768_S8x32768_S4x8_1_1_0_0_n_n.contr.Idx) :
    (dot_S4x32768_S8x32768_S4x8_1_1_0_0_n_n.lhsIdx i q 1).val = (q ⟨0, by decide⟩).val :=
  dot_S4x32768_S8x32768_S4x8_1_1_0_0_n_n.lhsIdx_val_of_single rfl i q

/-- The free coordinate of the right operand's index is the output column. -/
theorem rhs_free (i : S4x8.Idx) (q : dot_S4x32768_S8x32768_S4x8_1_1_0_0_n_n.contr.Idx) :
    (dot_S4x32768_S8x32768_S4x8_1_1_0_0_n_n.rhsIdx i q 0).val = (i 1).val := by
  unfold DotDims.rhsIdx
  rw [dif_neg (show ¬(0 : Fin S8x32768.rank) ∈ dot_S4x32768_S8x32768_S4x8_1_1_0_0_n_n.rhsBatch by decide),
    dif_pos (show (0 : Fin S8x32768.rank) ∈ dot_S4x32768_S8x32768_S4x8_1_1_0_0_n_n.rhsNonContracting by decide)]
  rfl

/-- The contracted coordinate of the right operand's index is the contraction position. -/
theorem rhs_contr (i : S4x8.Idx) (q : dot_S4x32768_S8x32768_S4x8_1_1_0_0_n_n.contr.Idx) :
    (dot_S4x32768_S8x32768_S4x8_1_1_0_0_n_n.rhsIdx i q 1).val = (q ⟨0, by decide⟩).val :=
  dot_S4x32768_S8x32768_S4x8_1_1_0_0_n_n.rhsIdx_val_of_single rfl i q

/-- The block product into a zero accumulator: both operands are contracted along their second axis. -/
theorem contrib_apply (A : FVec Ideal S4x32768 .bf16) (B : FVec Ideal S8x32768 .bf16) (r : Fin 4) (p : Fin 8) :
    matmul (F := Ideal) dot_S4x32768_S8x32768_S4x8_1_1_0_0_n_n none A B (constant S4x8 .f32 0x00000000#32) (ix2 r p)
      = ∑ l : Fin 32768, A (ix2 r l) * B (ix2 p l) := by
  refine (Ideal.matmul_constant_zero_apply dot_S4x32768_S8x32768_S4x8_1_1_0_0_n_n none A B (ix2 r p)).trans ?_
  rw [← Equiv.sum_comp (contrEquiv1 dot_S4x32768_S8x32768_S4x8_1_1_0_0_n_n 32768 rfl rfl).symm]
  refine Finset.sum_congr rfl fun l _ => ?_
  have hk := contrEquiv1_symm_val dot_S4x32768_S8x32768_S4x8_1_1_0_0_n_n 32768 rfl rfl l
  have el : dot_S4x32768_S8x32768_S4x8_1_1_0_0_n_n.lhsIdx (ix2 r p)
      ((contrEquiv1 dot_S4x32768_S8x32768_S4x8_1_1_0_0_n_n 32768 rfl rfl).symm l) = ix2 r l :=
    funext fun a => Fin.ext (by
      match a with
      | ⟨0, _⟩ => exact lhs_free _ _
      | ⟨1, _⟩ => exact (lhs_contr _ _).trans hk)
  have er : dot_S4x32768_S8x32768_S4x8_1_1_0_0_n_n.rhsIdx (ix2 r p)
      ((contrEquiv1 dot_S4x32768_S8x32768_S4x8_1_1_0_0_n_n 32768 rfl rfl).symm l) = ix2 p l :=
    funext fun a => Fin.ext (by
      match a with
      | ⟨0, _⟩ => exact rhs_free _ _
      | ⟨1, _⟩ => exact (rhs_contr _ _).trans hk)
  rw [el, er]

/-! ## The first kernel: 64 flat positions, 32 per core -/

/-- The first store's payload is the zero block. -/
theorem pay1_zero_0 (r : Fin 4) (p : Fin 8) : k0_pay1 (F := Ideal) (ix3 (0 : Fin 1) r p) = 0 := by
  unfold k0_pay1
  refine (shapeCast_ab_1ab_apply _ shapeCasts_S4x8_S1x4x8 (0 : Fin 1) r p).trans ?_
  exact Ideal.ofBits_zero_f32

/-- The one-hot row: the entry at column `j` of the indicator of column `G`, as a float. -/
theorem onehot_apply_0 (G j : Fin 64) (v1 : BitVec 32) (hv : v1 = BitVec.ofNat 32 G.val) :
    (sitofp .f32 (extui 32 (cmpi .eq (iota .tc S1x64 32 [1] iota_S1x64_d1_w32) (broadcast S1x64 v1)) natLt_1_32) : FVec Ideal S1x64 .f32) (ix2 (0 : Fin 1) j)
      = if j = G then 1 else 0 := by
  subst hv
  show FloatOps.sitofp .f32 ((IntOp.cmpi .eq (iota .tc S1x64 32 [1] iota_S1x64_d1_w32 (ix2 (0 : Fin 1) j)) (BitVec.ofNat 32 G.val)).setWidth 32) = _
  rw [iota_single_apply]
  show (((((IntOp.cmpi .eq (BitVec.ofNat 32 j.val) (BitVec.ofNat 32 G.val)).setWidth 32).toInt : ℝ) : EReal)) = _
  by_cases h : j = G
  · subst h
    rw [if_pos rfl]
    have h1 : IntOp.cmpi .eq (BitVec.ofNat 32 j.val) (BitVec.ofNat 32 j.val) = 1#1 := by
      show BitVec.ofBool (BitVec.ofNat 32 j.val == BitVec.ofNat 32 j.val) = 1#1
      rw [beq_self_eq_true]; rfl
    rw [h1]
    have h2 : ((1#1).setWidth 32).toInt = 1 := by decide
    rw [h2]; simp
  · rw [if_neg h]
    have hne : BitVec.ofNat 32 j.val ≠ BitVec.ofNat 32 G.val := by
      intro e
      apply h
      apply Fin.ext
      have e' := congrArg BitVec.toNat e
      simp only [BitVec.toNat_ofNat] at e'
      have hj := j.isLt; have hg := G.isLt
      omega
    have h1 : IntOp.cmpi .eq (BitVec.ofNat 32 j.val) (BitVec.ofNat 32 G.val) = 0#1 := by
      show BitVec.ofBool (BitVec.ofNat 32 j.val == BitVec.ofNat 32 G.val) = 0#1
      rw [beq_eq_false_iff_ne.mpr hne]; rfl
    rw [h1]
    have h2 : ((0#1).setWidth 32).toInt = 0 := by decide
    rw [h2]; simp

/-- The flat grid position as a 32-bit word: no wrap-around, since it stays below 64. -/
theorem gridWord_0 (a b : Nat) (G : Fin 64) (ha : a < 2) (hb : b < 32) (hG : G.val = a * 32 + b) :
    Scalar.addi (Scalar.muli (BitVec.ofNat 32 a) 32#32) (BitVec.ofNat 32 b) = BitVec.ofNat 32 G.val := by
  show BitVec.ofNat 32 a * 32#32 + BitVec.ofNat 32 b = BitVec.ofNat 32 G.val
  apply BitVec.eq_of_toNat_eq
  simp only [BitVec.toNat_add, BitVec.toNat_mul, BitVec.toNat_ofNat]
  rw [hG]
  omega

/-- The row sum against the one-hot row picks the entry at column `G`: every other term is a product with zero. -/
theorem scal_apply_0 (x0 : FVec Ideal S4x64 .f32) (oh : FVec Ideal S1x64 .f32) (G : Fin 64)
    (hoh : ∀ j : Fin 64, oh (ix2 (0 : Fin 1) j) = if j = G then 1 else 0) (r : Fin 4) :
    multiReduction (F := Ideal) .add [1] S4 (mulf (shapeCast S4x64 x0 shapeCasts_S4x64_S4x64) (broadcastTo S4x64 oh broadcasts_S1x64_S4x64)) 0x00000000#32 reduces_S4x64_S4 (.inl rfl) rfl (ix1 r)
      = x0 (ix2 r G) := by
  refine (Cert.LibMatrixReduce.rowSum_apply _ _ _ _ _ r).trans ?_
  refine (Finset.sum_eq_single G (fun c _ hc => ?_) (fun h => absurd (Finset.mem_univ G) h)).trans ?_
  · rw [mulf_apply, Cert.Rows.bcast_row (by decide), hoh, if_neg hc, mul_zero]
  · rw [mulf_apply, Cert.Rows.bcast_row (by decide), hoh, if_pos rfl, mul_one, shapeCast_self]

/-- The second store's payload at `(0, r, p)`: the accumulator plus the block product of the scaled tile with the
coefficient tile, the scale being the prefix entry at the flat grid position `G`. -/
theorem pay2_apply_0 (i : grid0.Coords) (x0 : Vec Ideal S4x64 .f32) (x1 : Vec Ideal S4x32768 .f32) (x2 : Vec Ideal S8x32768 .f32) (acc : Vec Ideal S1x4x8 .f32)
    (G : Fin 64) (hG : G.val = (i 0).val * 32 + (i 1).val) (r : Fin 4) (p : Fin 8) :
    k0_pay2 (F := Ideal) i x0 x1 x2 acc (ix3 (0 : Fin 1) r p)
      = acc (ix3 (0 : Fin 1) r p) + ∑ l : Fin 32768, (x1 (ix2 r l) * x0 (ix2 r G)) * x2 (ix2 p l) := by
  have hw : Scalar.addi (Scalar.muli (BitVec.ofNat 32 (i 0).val) 32#32) (BitVec.ofNat 32 (i 1).val) = BitVec.ofNat 32 G.val :=
    gridWord_0 _ _ G (show (i 0).val < 2 from (i 0).isLt) (show (i 1).val < 32 from (i 1).isLt) hG
  unfold k0_pay2
  refine (shapeCast_ab_1ab_apply _ shapeCasts_S4x8_S1x4x8 (0 : Fin 1) r p).trans ?_
  refine (addf_apply _ _ (ix2 r p)).trans ?_
  refine congrArg₂ (· + ·) (shapeCast_1ab_ab_apply _ shapeCasts_S1x4x8_S4x8 r p) ?_
  refine (contrib_apply _ _ r p).trans ?_
  refine Finset.sum_congr rfl fun l _ => ?_
  refine congrArg₂ (· * ·) ?_ ?_
  · refine (truncf_apply (φ := .f32) (ψ := .bf16) _ bitsLt_bf16_f32 (ix2 r l)).trans ?_
    refine (mulf_apply _ _ _).trans ?_
    refine congrArg₂ (· * ·) ?_ ?_
    · rw [shapeCast_self]
    · refine (Cert.LibMatrixReduce.keptCol_apply (by decide) _ shapeCasts_S4_S4x1 broadcasts_S4x1_S4x32768 r l).trans ?_
      exact scal_apply_0 x0 _ G (fun j => onehot_apply_0 G j _ hw) r
  · exact truncf_apply (φ := .f32) (ψ := .bf16) _ bitsLt_bf16_f32 (ix2 p l)

/-! ## The second kernel: 512 flat positions, 256 per core -/

/-- The first store's payload is the zero block. -/
theorem pay1_zero_1 (r : Fin 4) (p : Fin 8) : k1_pay1 (F := Ideal) (ix3 (0 : Fin 1) r p) = 0 := by
  unfold k1_pay1
  refine (shapeCast_ab_1ab_apply _ shapeCasts_S4x8_S1x4x8 (0 : Fin 1) r p).trans ?_
  exact Ideal.ofBits_zero_f32

/-- The one-hot row: the entry at column `j` of the indicator of column `G`, as a float. -/
theorem onehot_apply_1 (G j : Fin 512) (v1 : BitVec 32) (hv : v1 = BitVec.ofNat 32 G.val) :
    (sitofp .f32 (extui 32 (cmpi .eq (iota .tc S1x512 32 [1] iota_S1x512_d1_w32) (broadcast S1x512 v1)) natLt_1_32) : FVec Ideal S1x512 .f32) (ix2 (0 : Fin 1) j)
      = if j = G then 1 else 0 := by
  subst hv
  show FloatOps.sitofp .f32 ((IntOp.cmpi .eq (iota .tc S1x512 32 [1] iota_S1x512_d1_w32 (ix2 (0 : Fin 1) j)) (BitVec.ofNat 32 G.val)).setWidth 32) = _
  rw [iota_single_apply]
  show (((((IntOp.cmpi .eq (BitVec.ofNat 32 j.val) (BitVec.ofNat 32 G.val)).setWidth 32).toInt : ℝ) : EReal)) = _
  by_cases h : j = G
  · subst h
    rw [if_pos rfl]
    have h1 : IntOp.cmpi .eq (BitVec.ofNat 32 j.val) (BitVec.ofNat 32 j.val) = 1#1 := by
      show BitVec.ofBool (BitVec.ofNat 32 j.val == BitVec.ofNat 32 j.val) = 1#1
      rw [beq_self_eq_true]; rfl
    rw [h1]
    have h2 : ((1#1).setWidth 32).toInt = 1 := by decide
    rw [h2]; simp
  · rw [if_neg h]
    have hne : BitVec.ofNat 32 j.val ≠ BitVec.ofNat 32 G.val := by
      intro e
      apply h
      apply Fin.ext
      have e' := congrArg BitVec.toNat e
      simp only [BitVec.toNat_ofNat] at e'
      have hj := j.isLt; have hg := G.isLt
      omega
    have h1 : IntOp.cmpi .eq (BitVec.ofNat 32 j.val) (BitVec.ofNat 32 G.val) = 0#1 := by
      show BitVec.ofBool (BitVec.ofNat 32 j.val == BitVec.ofNat 32 G.val) = 0#1
      rw [beq_eq_false_iff_ne.mpr hne]; rfl
    rw [h1]
    have h2 : ((0#1).setWidth 32).toInt = 0 := by decide
    rw [h2]; simp

/-- The flat grid position as a 32-bit word: no wrap-around, since it stays below 512. -/
theorem gridWord_1 (a b : Nat) (G : Fin 512) (ha : a < 2) (hb : b < 256) (hG : G.val = a * 256 + b) :
    Scalar.addi (Scalar.muli (BitVec.ofNat 32 a) 256#32) (BitVec.ofNat 32 b) = BitVec.ofNat 32 G.val := by
  show BitVec.ofNat 32 a * 256#32 + BitVec.ofNat 32 b = BitVec.ofNat 32 G.val
  apply BitVec.eq_of_toNat_eq
  simp only [BitVec.toNat_add, BitVec.toNat_mul, BitVec.toNat_ofNat]
  rw [hG]
  omega

/-- The row sum against the one-hot row picks the entry at column `G`: every other term is a product with zero. -/
theorem scal_apply_1 (x0 : FVec Ideal S4x512 .f32) (oh : FVec Ideal S1x512 .f32) (G : Fin 512)
    (hoh : ∀ j : Fin 512, oh (ix2 (0 : Fin 1) j) = if j = G then 1 else 0) (r : Fin 4) :
    multiReduction (F := Ideal) .add [1] S4 (mulf (shapeCast S4x512 x0 shapeCasts_S4x512_S4x512) (broadcastTo S4x512 oh broadcasts_S1x512_S4x512)) 0x00000000#32 reduces_S4x512_S4 (.inl rfl) rfl (ix1 r)
      = x0 (ix2 r G) := by
  refine (Cert.LibMatrixReduce.rowSum_apply _ _ _ _ _ r).trans ?_
  refine (Finset.sum_eq_single G (fun c _ hc => ?_) (fun h => absurd (Finset.mem_univ G) h)).trans ?_
  · rw [mulf_apply, Cert.Rows.bcast_row (by decide), hoh, if_neg hc, mul_zero]
  · rw [mulf_apply, Cert.Rows.bcast_row (by decide), hoh, if_pos rfl, mul_one, shapeCast_self]

/-- The second store's payload at `(0, r, p)`: the accumulator plus the block product of the scaled tile with the
coefficient tile, the scale being the prefix entry at the flat grid position `G`. -/
theorem pay2_apply_1 (i : grid1.Coords) (x0 : Vec Ideal S4x512 .f32) (x1 : Vec Ideal S4x32768 .f32) (x2 : Vec Ideal S8x32768 .f32) (acc : Vec Ideal S1x4x8 .f32)
    (G : Fin 512) (hG : G.val = (i 0).val * 256 + (i 1).val) (r : Fin 4) (p : Fin 8) :
    k1_pay2 (F := Ideal) i x0 x1 x2 acc (ix3 (0 : Fin 1) r p)
      = acc (ix3 (0 : Fin 1) r p) + ∑ l : Fin 32768, (x1 (ix2 r l) * x0 (ix2 r G)) * x2 (ix2 p l) := by
  have hw : Scalar.addi (Scalar.muli (BitVec.ofNat 32 (i 0).val) 256#32) (BitVec.ofNat 32 (i 1).val) = BitVec.ofNat 32 G.val :=
    gridWord_1 _ _ G (show (i 0).val < 2 from (i 0).isLt) (show (i 1).val < 256 from (i 1).isLt) hG
  unfold k1_pay2
  refine (shapeCast_ab_1ab_apply _ shapeCasts_S4x8_S1x4x8 (0 : Fin 1) r p).trans ?_
  refine (addf_apply _ _ (ix2 r p)).trans ?_
  refine congrArg₂ (· + ·) (shapeCast_1ab_ab_apply _ shapeCasts_S1x4x8_S4x8 r p) ?_
  refine (contrib_apply _ _ r p).trans ?_
  refine Finset.sum_congr rfl fun l _ => ?_
  refine congrArg₂ (· * ·) ?_ ?_
  · refine (truncf_apply (φ := .f32) (ψ := .bf16) _ bitsLt_bf16_f32 (ix2 r l)).trans ?_
    refine (mulf_apply _ _ _).trans ?_
    refine congrArg₂ (· * ·) ?_ ?_
    · rw [shapeCast_self]
    · refine (Cert.LibMatrixReduce.keptCol_apply (by decide) _ shapeCasts_S4_S4x1 broadcasts_S4x1_S4x32768 r l).trans ?_
      exact scal_apply_1 x0 _ G (fun j => onehot_apply_1 G j _ hw) r
  · exact truncf_apply (φ := .f32) (ψ := .bf16) _ bitsLt_bf16_f32 (ix2 p l)

end Cert.Payload

end
-- ==== Proof.Region0.lean ====
/-
  The first tiled product (the degree-7 term) read as values at the exact extended reals.

  The grid is 2 halves × 32 points.  At point t = 32·a + g the body adds to the accumulator block of half a the block
  product Σ_l (K₅(r, l) · K₂(r, t)) · c₇(p, 32768·t + l); the accumulator is reset at the first point of each half
  and written back after its last.  The staging buffer's contents after each point are defined by recursion on the
  point over the two control cases; here each case's stores are read back as the body's payload, the recursion is
  solved by induction on the point (the ordered sum of the half's block products so far), and the result array
  after the region is the two halves' totals.  Everything is stated for ANY contents V the region is entered with.
-/
import proofs.«131565_j2130303779115_2_alg».proof.Proof.Gen.KernelIdeal.Frame
import Idealize.ShloMosaic.Lib.Pipeline.Value
import Idealize.ShloMosaic.Lib.Tactic
import Idealize.ShloMosaic.Lib.ValueIdx
import proofs.«131565_j2130303779115_2_alg».proof.Proof.KronSpec
import proofs.«131565_j2130303779115_2_alg».proof.Proof.Payload

noncomputable section

open Idealize.ShloMosaic Idealize.ShloMosaic.TcCoe Idealize.SL.Sem
open Idealize.ShloMosaic.Pipeline (Dat)

namespace Cert.KernelIdeal.Region0

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A point that does not reset: the body leaves, in the output's staging buffer holding `xo`, its one covering
    store's payload of the three input blocks and `xo`. -/
theorem out_B (c : Dev nD) (i : grid0.Coords) (a2 : Memref sig .tc .vmem S4x64 .f32) (h2 : a2.IsWhole)
    (a3 : Memref sig .tc .vmem S4x32768 .f32) (h3 : a3.IsWhole) (a4 : Memref sig .tc .vmem S8x32768 .f32) (h4 : a4.IsWhole)
    (a5 : Memref sig .tc .vmem S1x4x8 .f32) (h5 : a5.IsWhole) (hc : ¬cond0_0 i)
    (x0 : Vec F S4x64 .f32) (x1 : Vec F S4x32768 .f32) (x2 : Vec F S8x32768 .f32) (xo : Vec F S1x4x8 .f32) :
    out0_B_3 c i a2 h2 a3 h3 a4 h4 a5 h5 hc x0 x1 x2 xo = k0_pay2 i x0 x1 x2 xo := by
  unfold out0_B_3
  rw [View.read_writes_eq_canon _ _ _ (cover0_B_3 c i a2 h2 a3 h3 a4 h4 a5 h5 hc x0 x1 x2 xo)]
  unfold kernelRun0_B
  dsimp only
  rw [View.canon_unit_zero hz3]
  simp only [View.readAt_eq_ld, h2.read_unread, h3.read_unread, h4.read_unread, h5.read_unread,
    View.ld_unit_zero (S := S4x64) hz2, View.ld_unit_zero (S := S4x32768) hz2, View.ld_unit_zero (S := S8x32768) hz2,
    View.ld_unit_zero (S := S1x4x8) hz3]

/-- A resetting point: the body stores the zero block, reads it back, and leaves the payload over it. -/
theorem out_A (c : Dev nD) (i : grid0.Coords) (a2 : Memref sig .tc .vmem S4x64 .f32) (h2 : a2.IsWhole)
    (a3 : Memref sig .tc .vmem S4x32768 .f32) (h3 : a3.IsWhole) (a4 : Memref sig .tc .vmem S8x32768 .f32) (h4 : a4.IsWhole)
    (a5 : Memref sig .tc .vmem S1x4x8 .f32) (h5 : a5.IsWhole) (hc : cond0_0 i)
    (x0 : Vec F S4x64 .f32) (x1 : Vec F S4x32768 .f32) (x2 : Vec F S8x32768 .f32) :
    out0_A_3 c i a2 h2 a3 h3 a4 h4 a5 h5 hc x0 x1 x2 = k0_pay2 i x0 x1 x2 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x4x8) hz3, View.readCov_unit_zero (S := S1x4x8) _ hz3]
  simp only [View.readAt_eq_ld, h2.read_unread, h3.read_unread, h4.read_unread,
    View.ld_unit_zero (S := S4x64) hz2, View.ld_unit_zero (S := S4x32768) hz2, View.ld_unit_zero (S := S8x32768) hz2]

/-! ## At the exact extended reals: what the accumulator holds after each grid point -/

section AtIdeal

open Idealize.ShloMosaic.ValueIdx Cert.KronSpec

variable (V : (c : Dev nD) → (b : Ref sig .tc) → Buf (Elt Ideal) ((c : Thread nD τ).loc b))

/-- The printed index maps, decided once over the 64 grid points: the two Kronecker factors are read whole at every
    point, the coefficient block of point `t` is column block `t`, the output block is the half `t / 32`, and the
    two grid coordinates of point `t` are `t / 32` and `t % 32`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 3) = t.val / 32 ∧ win0_3.index t (1 : Fin 3) = 0 ∧ win0_3.index t (2 : Fin 3) = 0
    ∧ (grid0.coords t 0).val * 32 + (grid0.coords t 1).val = t.val :=
  (by decide +kernel : ∀ t : Fin grid0.N, _)

/-- The block of the short Kronecker factor at any point is the whole array. -/
theorem read_prefix (c : Dev nD) (t : Fin cfg0.N) (y : S4x64.Idx) :
    (iblk0 V c 0 t : S4x64.Idx → EReal) y = V c main_v5 y := by
  obtain ⟨e0, e1, -⟩ := idx_facts t
  show V c main_v5 (((cfg0.win 0).blk t).view.emb y) = V c main_v5 y
  refine congrArg (V c main_v5) (funext fun a => Fin.ext ?_)
  match a with
  | ⟨0, _⟩ => show win0_0.index t (0 : Fin 2) * 4 + 1 * (y 0).val = (y 0).val; rw [e0]; omega
  | ⟨1, _⟩ => show win0_0.index t (1 : Fin 2) * 64 + 1 * (y 1).val = (y 1).val; rw [e1]; omega

/-- The block of the fifth Kronecker power at any point is the whole array. -/
theorem read_local (c : Dev nD) (t : Fin cfg0.N) (y : S4x32768.Idx) :
    (iblk0 V c 1 t : S4x32768.Idx → EReal) y = V c main_v23 y := by
  obtain ⟨-, -, e0, e1, -⟩ := idx_facts t
  show V c main_v23 (((cfg0.win 1).blk t).view.emb y) = V c main_v23 y
  refine congrArg (V c main_v23) (funext fun a => Fin.ext ?_)
  match a with
  | ⟨0, _⟩ => show win0_1.index t (0 : Fin 2) * 4 + 1 * (y 0).val = (y 0).val; rw [e0]; omega
  | ⟨1, _⟩ => show win0_1.index t (1 : Fin 2) * 32768 + 1 * (y 1).val = (y 1).val; rw [e1]; omega

/-- The coefficient block at point `t` is columns `32768·t … 32768·t + 32767` of the coefficient array. -/
theorem read_coef (c : Dev nD) (t : Fin cfg0.N) (p : Fin 8) (l : Fin 32768) (k : Fin 2097152)
    (hk : k.val = 32768 * t.val + l.val) :
    (iblk0 V c 2 t : S8x32768.Idx → EReal) (ix2 p l) = V c main_arg8 (ix2 p k) := by
  obtain ⟨-, -, -, -, e0, e1, -⟩ := idx_facts t
  show V c main_arg8 (((cfg0.win 2).blk t).view.emb (ix2 p l)) = V c main_arg8 (ix2 p k)
  refine congrArg (V c main_arg8) (funext fun a => Fin.ext ?_)
  match a with
  | ⟨0, _⟩ => show win0_2.index t (0 : Fin 2) * 8 + 1 * p.val = p.val; rw [e0]; omega
  | ⟨1, _⟩ => show win0_2.index t (1 : Fin 2) * 32768 + 1 * l.val = k.val; rw [e1, hk]; omega

end AtIdeal

section Accumulate

open Idealize.ShloMosaic.ValueIdx Cert.KronSpec

variable (V : (c : Dev nD) → (b : Ref sig .tc) → Buf (Elt Ideal) ((c : Thread nD τ).loc b))

/-- The three arrays the region reads, as it finds them, as functions into the extended reals: the second and the
    fifth Kronecker powers of the rows of `X`, and the degree-7 coefficients. -/
abbrev arrK2 (c : Dev nD) : S4x64.Idx → EReal := V c main_v5
abbrev arrK5 (c : Dev nD) : S4x32768.Idx → EReal := V c main_v23
abbrev arrC7 (c : Dev nD) : S8x2097152.Idx → EReal := V c main_arg8

/-- What grid point `G` adds to entry `(r, p)` of its half's accumulator: the block product
    `Σ_l (K₅(r, l) · K₂(r, G)) · c₇(p, 32768·G + l)` (zero for a number that is no grid point). -/
def contrib (c : Dev nD) (r : Fin 4) (p : Fin 8) (G : ℕ) : EReal :=
  if h : G < 64 then
    ∑ l : Fin 32768, (arrK5 V c (ix2 r l) * arrK2 V c (ix2 r (⟨G, h⟩ : Fin 64))) * arrC7 V c (ix2 p (kIdx7 ⟨G, h⟩ l))
  else 0

/-- The body's payload at point `t`, over any accumulator contents: the accumulator plus the point's block product. -/
theorem point_val (c : Dev nD) (t : Fin cfg0.N) (acc : Vec Ideal S1x4x8 .f32) (r : Fin 4) (p : Fin 8) :
    k0_pay2 (F := Ideal) (grid0.coords t) (iblk0 V c 0 t) (iblk0 V c 1 t) (iblk0 V c 2 t) acc (ix3 (0 : Fin 1) r p)
      = acc (ix3 (0 : Fin 1) r p) + contrib V c r p t.val := by
  have hN : t.val < 64 := lt_of_lt_of_eq t.isLt (show cfg0.N = 64 from N_0)
  obtain ⟨-, -, -, -, -, -, -, -, -, hG⟩ := idx_facts t
  refine (Cert.Payload.pay2_apply_0 (grid0.coords t) (iblk0 V c 0 t) (iblk0 V c 1 t) (iblk0 V c 2 t) acc
    (⟨t.val, hN⟩ : Fin 64) hG.symm r p).trans ?_
  unfold contrib
  rw [dif_pos hN]
  refine congrArg (acc (ix3 (0 : Fin 1) r p) + ·) (Finset.sum_congr rfl fun l _ => ?_)
  rw [read_local V c t (ix2 r l), read_prefix V c t (ix2 r (⟨t.val, hN⟩ : Fin 64)),
    read_coef V c t p l (kIdx7 ⟨t.val, hN⟩ l) rfl]

/-- After a resetting point the accumulator holds that point's block product alone. -/
theorem step_A (c : Dev nD) (t : Fin cfg0.N) (h0 : t.val % 32 = 0) (r : Fin 4) (p : Fin 8) :
    outsAt0 V c t.val t.isLt (ix3 (0 : Fin 1) r p) = contrib V c r p t.val := by
  rw [outsAt0_A V c t h0]
  refine (congrFun (out_A c (grid0.coords t) (ms0_0 t) (hs0_0 t) (ms0_1 t) (hs0_1 t) (ms0_2 t) (hs0_2 t) (ms0_3 t) (hs0_3 t)
    ((hcond0_0 t).mpr h0) (iblk0 V c 0 t) (iblk0 V c 1 t) (iblk0 V c 2 t)) (ix3 (0 : Fin 1) r p)).trans ?_
  rw [point_val V c t (k0_pay1 (F := Ideal)) r p, Cert.Payload.pay1_zero_0, zero_add]

/-- After any other point it holds what the point before left plus this point's block product. -/
theorem step_B (c : Dev nD) (t : Fin cfg0.N) (h0 : ¬t.val % 32 = 0) (r : Fin 4) (p : Fin 8) :
    outsAt0 V c t.val t.isLt (ix3 (0 : Fin 1) r p)
      = outsAt0 V c (t.val - 1) (Nat.lt_of_le_of_lt (Nat.sub_le _ _) t.isLt) (ix3 (0 : Fin 1) r p) + contrib V c r p t.val := by
  rw [outsAt0_B V c t h0]
  refine (congrFun (out_B c (grid0.coords t) (ms0_0 t) (hs0_0 t) (ms0_1 t) (hs0_1 t) (ms0_2 t) (hs0_2 t) (ms0_3 t) (hs0_3 t)
    (fun h => h0 ((hcond0_0 t).mp h)) (iblk0 V c 0 t) (iblk0 V c 1 t) (iblk0 V c 2 t)
    (outsAt0 V c (t.val - 1) (Nat.lt_of_le_of_lt (Nat.sub_le _ _) t.isLt))) (ix3 (0 : Fin 1) r p)).trans ?_
  exact point_val V c t _ r p

/-- So after point `n` the accumulator of half `n / 32` holds the block products of that half's points up to `n`,
    added in point order: by induction on the point. -/
theorem outsAt_closed (c : Dev nD) (r : Fin 4) (p : Fin 8) : ∀ (n : ℕ) (h : n < cfg0.N),
    outsAt0 V c n h (ix3 (0 : Fin 1) r p) = ∑ g ∈ Finset.range (n % 32 + 1), contrib V c r p (32 * (n / 32) + g)
  | 0, h => by
    rw [step_A V c ⟨0, h⟩ rfl r p]
    simp
  | n + 1, h => by
    by_cases h0 : (n + 1) % 32 = 0
    · rw [step_A V c ⟨n + 1, h⟩ h0 r p, h0, Finset.sum_range_one]
      refine congrArg (contrib V c r p) ?_
      show n + 1 = 32 * ((n + 1) / 32) + 0
      omega
    · rw [step_B V c ⟨n + 1, h⟩ h0 r p]
      show outsAt0 V c n _ (ix3 (0 : Fin 1) r p) + contrib V c r p (n + 1) = _
      rw [outsAt_closed c r p n (Nat.lt_of_succ_lt h)]
      have e1 : (n + 1) % 32 = n % 32 + 1 := by omega
      have e2 : (n + 1) / 32 = n / 32 := by omega
      rw [e1, e2, Finset.sum_range_succ _ (n % 32 + 1)]
      refine congrArg (_ + ·) (congrArg (contrib V c r p) ?_)
      omega

end Accumulate

section Final

open Idealize.ShloMosaic.ValueIdx Cert.KronSpec

variable (V : (c : Dev nD) → (b : Ref sig .tc) → Buf (Elt Ideal) ((c : Thread nD τ).loc b))

/-- What the region leaves in its result array: at `(a, r, p)` the block products of the 32 points of half `a`,
    added in point order. -/
def halves (c : Dev nD) : S2x4x8.Idx → EReal := fun j =>
  ∑ g ∈ Finset.range 32, contrib V c ⟨(j 1).val, (j 1).isLt⟩ ⟨(j 2).val, (j 2).isLt⟩ (32 * (j 0).val + g)

/-- An index of the result array is in point `t`'s block iff each coordinate is in the block's range on its axis. -/
theorem mem_blk (t : Fin cfg0.N) (i : S2x4x8.Idx) :
    i ∈ ((cfg0.win 3).blk t).view.set ↔ ∀ a : Fin 3, win0_3.index t a * S1x4x8.size a ≤ (i a).val ∧ (i a).val < win0_3.index t a * S1x4x8.size a + S1x4x8.size a := by
  show i ∈ ((View.whole main_v50).slice (win0_3.rect t)).set ↔ _
  rw [View.set_slice_whole, Rect.mem_set_unit]
  exact Iff.rfl

/-- What a half's last point writes back is that half's block of `halves`. -/
theorem flushed_eq (c : Dev nD) (t : Fin cfg0.N) (hf : (cfg0.win 3).flush t = true) :
    (dat0 V c).flushed 3 t = ((cfg0.win 3).blk t).view.read (Elt Ideal) (halves V c) := by
  have hN : t.val < 64 := lt_of_lt_of_eq t.isLt (show cfg0.N = 64 from N_0)
  have h31 : t.val % 32 = 31 := (flush0_3 t).mp hf
  obtain ⟨-, -, -, -, -, -, e0, e1, e2, -⟩ := idx_facts t
  show (cfg0.win 3).cut (grid0.coords t) ((dat0 V c).after 3 t) = _
  rw [after0_3]
  funext j
  have hj0 : (j 0).val < 1 := (j 0).isLt
  have hj1 : (j 1).val < 4 := (j 1).isLt
  have hj2 : (j 2).val < 8 := (j 2).isLt
  have ej : j = ix3 (0 : Fin 1) (⟨(j 1).val, hj1⟩ : Fin 4) (⟨(j 2).val, hj2⟩ : Fin 8) := funext fun a => Fin.ext (by
    match a with
    | ⟨0, _⟩ => show (j 0).val = 0; omega
    | ⟨1, _⟩ => rfl
    | ⟨2, _⟩ => rfl)
  show outsAt0 V c t.val t.isLt j = halves V c (((cfg0.win 3).blk t).view.emb j)
  rw [ej, outsAt_closed V c ⟨(j 1).val, hj1⟩ ⟨(j 2).val, hj2⟩ t.val t.isLt, h31]
  unfold halves
  refine Finset.sum_congr rfl fun g _ => ?_
  have c0 : ((((cfg0.win 3).blk t).view.emb (ix3 (0 : Fin 1) (⟨(j 1).val, hj1⟩ : Fin 4) (⟨(j 2).val, hj2⟩ : Fin 8))) 0).val = t.val / 32 := by
    show win0_3.index t (0 : Fin 3) * 1 + 1 * 0 = t.val / 32
    rw [e0]; omega
  have c1 : ((((cfg0.win 3).blk t).view.emb (ix3 (0 : Fin 1) (⟨(j 1).val, hj1⟩ : Fin 4) (⟨(j 2).val, hj2⟩ : Fin 8))) 1).val = (j 1).val := by
    show win0_3.index t (1 : Fin 3) * 4 + 1 * (j 1).val = (j 1).val
    rw [e1]; omega
  have c2 : ((((cfg0.win 3).blk t).view.emb (ix3 (0 : Fin 1) (⟨(j 1).val, hj1⟩ : Fin 4) (⟨(j 2).val, hj2⟩ : Fin 8))) 2).val = (j 2).val := by
    show win0_3.index t (2 : Fin 3) * 8 + 1 * (j 2).val = (j 2).val
    rw [e2]; omega
  simp only [c0, c1, c2]

/-- Every index of the result array is in the block the last point of its half writes back. -/
theorem cover (i : S2x4x8.Idx) : ∃ t : Fin cfg0.N, (cfg0.win 3).flush t = true ∧ i ∈ ((cfg0.win 3).blk t).view.set := by
  have hi0 : (i 0).val < 2 := (i 0).isLt
  have hi1 : (i 1).val < 4 := (i 1).isLt
  have hi2 : (i 2).val < 8 := (i 2).isLt
  have hN : cfg0.N = 64 := N_0
  let t : Fin cfg0.N := ⟨32 * (i 0).val + 31, by rw [hN]; omega⟩
  have ht : t.val = 32 * (i 0).val + 31 := rfl
  obtain ⟨-, -, -, -, -, -, e0, e1, e2, -⟩ := idx_facts t
  refine ⟨t, (flush0_3 t).mpr (by rw [ht]; omega), ?_⟩
  rw [mem_blk]
  intro a
  match a with
  | ⟨0, _⟩ => show win0_3.index t (0 : Fin 3) * 1 ≤ (i 0).val ∧ (i 0).val < win0_3.index t (0 : Fin 3) * 1 + 1; rw [e0, ht]; omega
  | ⟨1, _⟩ => show win0_3.index t (1 : Fin 3) * 4 ≤ (i 1).val ∧ (i 1).val < win0_3.index t (1 : Fin 3) * 4 + 4; rw [e1]; omega
  | ⟨2, _⟩ => show win0_3.index t (2 : Fin 3) * 8 ≤ (i 2).val ∧ (i 2).val < win0_3.index t (2 : Fin 3) * 8 + 8; rw [e2]; omega

/-- THE RESULT ARRAY after the region, whatever the contents it was entered with. -/
theorem final (c : Dev nD) : (dat0 V c).arrAt 3 cfg0.N = halves V c :=
  (dat0 V c).arrAt_eq_of_cover 3 (halves V c) (flushed_eq V c) (cover)

/-- Entry `(a, r, p)` of it, as a sum over the half's 32 blocks. -/
theorem halves_apply (c : Dev nD) (a : Fin 2) (r : Fin 4) (p : Fin 8) :
    halves V c (ix3 a r p)
      = ∑ b : Fin 32, ∑ l : Fin 32768, (arrK5 V c (ix2 r l) * arrK2 V c (ix2 r (gIdx7 a b))) * arrC7 V c (ix2 p (kIdx7 (gIdx7 a b) l)) := by
  show ∑ g ∈ Finset.range 32, contrib V c r p (32 * a.val + g) = _
  rw [Finset.sum_range]
  refine Finset.sum_congr rfl fun b _ => ?_
  have hb : 32 * a.val + b.val < 64 := by have := a.isLt; have := b.isLt; omega
  unfold contrib
  rw [dif_pos hb]
  rfl

end Final

end Cert.KernelIdeal.Region0

end
-- ==== Proof.Region1.lean ====
/-
  The second tiled product (the degree-8 term) read as values at the exact extended reals.

  The grid is 2 halves × 256 points.  At point t = 256·a + g the body adds to the accumulator block of half a the block
  product Σ_l (K₅(r, l) · K₃(r, t)) · c₈(p, 32768·t + l); the accumulator is reset at the first point of each half
  and written back after its last.  The staging buffer's contents after each point are defined by recursion on the
  point over the two control cases; here each case's stores are read back as the body's payload, the recursion is
  solved by induction on the point (the ordered sum of the half's block products so far), and the result array
  after the region is the two halves' totals.  Everything is stated for ANY contents V the region is entered with.
-/
import proofs.«131565_j2130303779115_2_alg».proof.Proof.Gen.KernelIdeal.Frame
import Idealize.ShloMosaic.Lib.Pipeline.Value
import Idealize.ShloMosaic.Lib.Tactic
import Idealize.ShloMosaic.Lib.ValueIdx
import proofs.«131565_j2130303779115_2_alg».proof.Proof.KronSpec
import proofs.«131565_j2130303779115_2_alg».proof.Proof.Payload

noncomputable section

open Idealize.ShloMosaic Idealize.ShloMosaic.TcCoe Idealize.SL.Sem
open Idealize.ShloMosaic.Pipeline (Dat)

namespace Cert.KernelIdeal.Region1

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A point that does not reset: the body leaves, in the output's staging buffer holding `xo`, its one covering
    store's payload of the three input blocks and `xo`. -/
theorem out_B (c : Dev nD) (i : grid1.Coords) (a2 : Memref sig .tc .vmem S4x512 .f32) (h2 : a2.IsWhole)
    (a3 : Memref sig .tc .vmem S4x32768 .f32) (h3 : a3.IsWhole) (a4 : Memref sig .tc .vmem S8x32768 .f32) (h4 : a4.IsWhole)
    (a5 : Memref sig .tc .vmem S1x4x8 .f32) (h5 : a5.IsWhole) (hc : ¬cond1_0 i)
    (x0 : Vec F S4x512 .f32) (x1 : Vec F S4x32768 .f32) (x2 : Vec F S8x32768 .f32) (xo : Vec F S1x4x8 .f32) :
    out1_B_3 c i a2 h2 a3 h3 a4 h4 a5 h5 hc x0 x1 x2 xo = k1_pay2 i x0 x1 x2 xo := by
  unfold out1_B_3
  rw [View.read_writes_eq_canon _ _ _ (cover1_B_3 c i a2 h2 a3 h3 a4 h4 a5 h5 hc x0 x1 x2 xo)]
  unfold kernelRun1_B
  dsimp only
  rw [View.canon_unit_zero hz3]
  simp only [View.readAt_eq_ld, h2.read_unread, h3.read_unread, h4.read_unread, h5.read_unread,
    View.ld_unit_zero (S := S4x512) hz2, View.ld_unit_zero (S := S4x32768) hz2, View.ld_unit_zero (S := S8x32768) hz2,
    View.ld_unit_zero (S := S1x4x8) hz3]

/-- A resetting point: the body stores the zero block, reads it back, and leaves the payload over it. -/
theorem out_A (c : Dev nD) (i : grid1.Coords) (a2 : Memref sig .tc .vmem S4x512 .f32) (h2 : a2.IsWhole)
    (a3 : Memref sig .tc .vmem S4x32768 .f32) (h3 : a3.IsWhole) (a4 : Memref sig .tc .vmem S8x32768 .f32) (h4 : a4.IsWhole)
    (a5 : Memref sig .tc .vmem S1x4x8 .f32) (h5 : a5.IsWhole) (hc : cond1_0 i)
    (x0 : Vec F S4x512 .f32) (x1 : Vec F S4x32768 .f32) (x2 : Vec F S8x32768 .f32) :
    out1_A_3 c i a2 h2 a3 h3 a4 h4 a5 h5 hc x0 x1 x2 = k1_pay2 i x0 x1 x2 (k1_pay1 (F := F)) := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x4x8) hz3, View.readCov_unit_zero (S := S1x4x8) _ hz3]
  simp only [View.readAt_eq_ld, h2.read_unread, h3.read_unread, h4.read_unread,
    View.ld_unit_zero (S := S4x512) hz2, View.ld_unit_zero (S := S4x32768) hz2, View.ld_unit_zero (S := S8x32768) hz2]

/-! ## At the exact extended reals: what the accumulator holds after each grid point -/

section AtIdeal

open Idealize.ShloMosaic.ValueIdx Cert.KronSpec

variable (V : (c : Dev nD) → (b : Ref sig .tc) → Buf (Elt Ideal) ((c : Thread nD τ).loc b))

/-- The printed index maps, decided once over the 512 grid points: the two Kronecker factors are read whole at every
    point, the coefficient block of point `t` is column block `t`, the output block is the half `t / 256`, and the
    two grid coordinates of point `t` are `t / 256` and `t % 256`. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = t.val
    ∧ win1_3.index t (0 : Fin 3) = t.val / 256 ∧ win1_3.index t (1 : Fin 3) = 0 ∧ win1_3.index t (2 : Fin 3) = 0
    ∧ (grid1.coords t 0).val * 256 + (grid1.coords t 1).val = t.val :=
  (by decide +kernel : ∀ t : Fin grid1.N, _)

/-- The block of the short Kronecker factor at any point is the whole array. -/
theorem read_prefix (c : Dev nD) (t : Fin cfg1.N) (y : S4x512.Idx) :
    (iblk1 V c 0 t : S4x512.Idx → EReal) y = V c main_v11 y := by
  obtain ⟨e0, e1, -⟩ := idx_facts t
  show V c main_v11 (((cfg1.win 0).blk t).view.emb y) = V c main_v11 y
  refine congrArg (V c main_v11) (funext fun a => Fin.ext ?_)
  match a with
  | ⟨0, _⟩ => show win1_0.index t (0 : Fin 2) * 4 + 1 * (y 0).val = (y 0).val; rw [e0]; omega
  | ⟨1, _⟩ => show win1_0.index t (1 : Fin 2) * 512 + 1 * (y 1).val = (y 1).val; rw [e1]; omega

/-- The block of the fifth Kronecker power at any point is the whole array. -/
theorem read_local (c : Dev nD) (t : Fin cfg1.N) (y : S4x32768.Idx) :
    (iblk1 V c 1 t : S4x32768.Idx → EReal) y = V c main_v23 y := by
  obtain ⟨-, -, e0, e1, -⟩ := idx_facts t
  show V c main_v23 (((cfg1.win 1).blk t).view.emb y) = V c main_v23 y
  refine congrArg (V c main_v23) (funext fun a => Fin.ext ?_)
  match a with
  | ⟨0, _⟩ => show win1_1.index t (0 : Fin 2) * 4 + 1 * (y 0).val = (y 0).val; rw [e0]; omega
  | ⟨1, _⟩ => show win1_1.index t (1 : Fin 2) * 32768 + 1 * (y 1).val = (y 1).val; rw [e1]; omega

/-- The coefficient block at point `t` is columns `32768·t … 32768·t + 32767` of the coefficient array. -/
theorem read_coef (c : Dev nD) (t : Fin cfg1.N) (p : Fin 8) (l : Fin 32768) (k : Fin 16777216)
    (hk : k.val = 32768 * t.val + l.val) :
    (iblk1 V c 2 t : S8x32768.Idx → EReal) (ix2 p l) = V c main_arg9 (ix2 p k) := by
  obtain ⟨-, -, -, -, e0, e1, -⟩ := idx_facts t
  show V c main_arg9 (((cfg1.win 2).blk t).view.emb (ix2 p l)) = V c main_arg9 (ix2 p k)
  refine congrArg (V c main_arg9) (funext fun a => Fin.ext ?_)
  match a with
  | ⟨0, _⟩ => show win1_2.index t (0 : Fin 2) * 8 + 1 * p.val = p.val; rw [e0]; omega
  | ⟨1, _⟩ => show win1_2.index t (1 : Fin 2) * 32768 + 1 * l.val = k.val; rw [e1, hk]; omega

end AtIdeal

section Accumulate

open Idealize.ShloMosaic.ValueIdx Cert.KronSpec

variable (V : (c : Dev nD) → (b : Ref sig .tc) → Buf (Elt Ideal) ((c : Thread nD τ).loc b))

/-- The three arrays the region reads, as it finds them, as functions into the extended reals: the third and the
    fifth Kronecker powers of the rows of `X`, and the degree-8 coefficients. -/
abbrev arrK3 (c : Dev nD) : S4x512.Idx → EReal := V c main_v11
abbrev arrK5 (c : Dev nD) : S4x32768.Idx → EReal := V c main_v23
abbrev arrC8 (c : Dev nD) : S8x16777216.Idx → EReal := V c main_arg9

/-- What grid point `G` adds to entry `(r, p)` of its half's accumulator: the block product
    `Σ_l (K₅(r, l) · K₃(r, G)) · c₈(p, 32768·G + l)` (zero for a number that is no grid point). -/
def contrib (c : Dev nD) (r : Fin 4) (p : Fin 8) (G : ℕ) : EReal :=
  if h : G < 512 then
    ∑ l : Fin 32768, (arrK5 V c (ix2 r l) * arrK3 V c (ix2 r (⟨G, h⟩ : Fin 512))) * arrC8 V c (ix2 p (kIdx8 ⟨G, h⟩ l))
  else 0

/-- The body's payload at point `t`, over any accumulator contents: the accumulator plus the point's block product. -/
theorem point_val (c : Dev nD) (t : Fin cfg1.N) (acc : Vec Ideal S1x4x8 .f32) (r : Fin 4) (p : Fin 8) :
    k1_pay2 (F := Ideal) (grid1.coords t) (iblk1 V c 0 t) (iblk1 V c 1 t) (iblk1 V c 2 t) acc (ix3 (0 : Fin 1) r p)
      = acc (ix3 (0 : Fin 1) r p) + contrib V c r p t.val := by
  have hN : t.val < 512 := lt_of_lt_of_eq t.isLt (show cfg1.N = 512 from N_1)
  obtain ⟨-, -, -, -, -, -, -, -, -, hG⟩ := idx_facts t
  refine (Cert.Payload.pay2_apply_1 (grid1.coords t) (iblk1 V c 0 t) (iblk1 V c 1 t) (iblk1 V c 2 t) acc
    (⟨t.val, hN⟩ : Fin 512) hG.symm r p).trans ?_
  unfold contrib
  rw [dif_pos hN]
  refine congrArg (acc (ix3 (0 : Fin 1) r p) + ·) (Finset.sum_congr rfl fun l _ => ?_)
  rw [read_local V c t (ix2 r l), read_prefix V c t (ix2 r (⟨t.val, hN⟩ : Fin 512)),
    read_coef V c t p l (kIdx8 ⟨t.val, hN⟩ l) rfl]

/-- After a resetting point the accumulator holds that point's block product alone. -/
theorem step_A (c : Dev nD) (t : Fin cfg1.N) (h0 : t.val % 256 = 0) (r : Fin 4) (p : Fin 8) :
    outsAt1 V c t.val t.isLt (ix3 (0 : Fin 1) r p) = contrib V c r p t.val := by
  rw [outsAt1_A V c t h0]
  refine (congrFun (out_A c (grid1.coords t) (ms1_0 t) (hs1_0 t) (ms1_1 t) (hs1_1 t) (ms1_2 t) (hs1_2 t) (ms1_3 t) (hs1_3 t)
    ((hcond1_0 t).mpr h0) (iblk1 V c 0 t) (iblk1 V c 1 t) (iblk1 V c 2 t)) (ix3 (0 : Fin 1) r p)).trans ?_
  rw [point_val V c t (k1_pay1 (F := Ideal)) r p, Cert.Payload.pay1_zero_1, zero_add]

/-- After any other point it holds what the point before left plus this point's block product. -/
theorem step_B (c : Dev nD) (t : Fin cfg1.N) (h0 : ¬t.val % 256 = 0) (r : Fin 4) (p : Fin 8) :
    outsAt1 V c t.val t.isLt (ix3 (0 : Fin 1) r p)
      = outsAt1 V c (t.val - 1) (Nat.lt_of_le_of_lt (Nat.sub_le _ _) t.isLt) (ix3 (0 : Fin 1) r p) + contrib V c r p t.val := by
  rw [outsAt1_B V c t h0]
  refine (congrFun (out_B c (grid1.coords t) (ms1_0 t) (hs1_0 t) (ms1_1 t) (hs1_1 t) (ms1_2 t) (hs1_2 t) (ms1_3 t) (hs1_3 t)
    (fun h => h0 ((hcond1_0 t).mp h)) (iblk1 V c 0 t) (iblk1 V c 1 t) (iblk1 V c 2 t)
    (outsAt1 V c (t.val - 1) (Nat.lt_of_le_of_lt (Nat.sub_le _ _) t.isLt))) (ix3 (0 : Fin 1) r p)).trans ?_
  exact point_val V c t _ r p

/-- So after point `n` the accumulator of half `n / 256` holds the block products of that half's points up to `n`,
    added in point order: by induction on the point. -/
theorem outsAt_closed (c : Dev nD) (r : Fin 4) (p : Fin 8) : ∀ (n : ℕ) (h : n < cfg1.N),
    outsAt1 V c n h (ix3 (0 : Fin 1) r p) = ∑ g ∈ Finset.range (n % 256 + 1), contrib V c r p (256 * (n / 256) + g)
  | 0, h => by
    rw [step_A V c ⟨0, h⟩ rfl r p]
    simp
  | n + 1, h => by
    by_cases h0 : (n + 1) % 256 = 0
    · rw [step_A V c ⟨n + 1, h⟩ h0 r p, h0, Finset.sum_range_one]
      refine congrArg (contrib V c r p) ?_
      show n + 1 = 256 * ((n + 1) / 256) + 0
      omega
    · rw [step_B V c ⟨n + 1, h⟩ h0 r p]
      show outsAt1 V c n _ (ix3 (0 : Fin 1) r p) + contrib V c r p (n + 1) = _
      rw [outsAt_closed c r p n (Nat.lt_of_succ_lt h)]
      have e1 : (n + 1) % 256 = n % 256 + 1 := by omega
      have e2 : (n + 1) / 256 = n / 256 := by omega
      rw [e1, e2, Finset.sum_range_succ _ (n % 256 + 1)]
      refine congrArg (_ + ·) (congrArg (contrib V c r p) ?_)
      omega

end Accumulate

section Final

open Idealize.ShloMosaic.ValueIdx Cert.KronSpec

variable (V : (c : Dev nD) → (b : Ref sig .tc) → Buf (Elt Ideal) ((c : Thread nD τ).loc b))

/-- What the region leaves in its result array: at `(a, r, p)` the block products of the 256 points of half `a`,
    added in point order. -/
def halves (c : Dev nD) : S2x4x8.Idx → EReal := fun j =>
  ∑ g ∈ Finset.range 256, contrib V c ⟨(j 1).val, (j 1).isLt⟩ ⟨(j 2).val, (j 2).isLt⟩ (256 * (j 0).val + g)

/-- An index of the result array is in point `t`'s block iff each coordinate is in the block's range on its axis. -/
theorem mem_blk (t : Fin cfg1.N) (i : S2x4x8.Idx) :
    i ∈ ((cfg1.win 3).blk t).view.set ↔ ∀ a : Fin 3, win1_3.index t a * S1x4x8.size a ≤ (i a).val ∧ (i a).val < win1_3.index t a * S1x4x8.size a + S1x4x8.size a := by
  show i ∈ ((View.whole main_v53).slice (win1_3.rect t)).set ↔ _
  rw [View.set_slice_whole, Rect.mem_set_unit]
  exact Iff.rfl

/-- What a half's last point writes back is that half's block of `halves`. -/
theorem flushed_eq (c : Dev nD) (t : Fin cfg1.N) (hf : (cfg1.win 3).flush t = true) :
    (dat1 V c).flushed 3 t = ((cfg1.win 3).blk t).view.read (Elt Ideal) (halves V c) := by
  have hN : t.val < 512 := lt_of_lt_of_eq t.isLt (show cfg1.N = 512 from N_1)
  have h31 : t.val % 256 = 255 := (flush1_3 t).mp hf
  obtain ⟨-, -, -, -, -, -, e0, e1, e2, -⟩ := idx_facts t
  show (cfg1.win 3).cut (grid1.coords t) ((dat1 V c).after 3 t) = _
  rw [after1_3]
  funext j
  have hj0 : (j 0).val < 1 := (j 0).isLt
  have hj1 : (j 1).val < 4 := (j 1).isLt
  have hj2 : (j 2).val < 8 := (j 2).isLt
  have ej : j = ix3 (0 : Fin 1) (⟨(j 1).val, hj1⟩ : Fin 4) (⟨(j 2).val, hj2⟩ : Fin 8) := funext fun a => Fin.ext (by
    match a with
    | ⟨0, _⟩ => show (j 0).val = 0; omega
    | ⟨1, _⟩ => rfl
    | ⟨2, _⟩ => rfl)
  show outsAt1 V c t.val t.isLt j = halves V c (((cfg1.win 3).blk t).view.emb j)
  rw [ej, outsAt_closed V c ⟨(j 1).val, hj1⟩ ⟨(j 2).val, hj2⟩ t.val t.isLt, h31]
  unfold halves
  refine Finset.sum_congr rfl fun g _ => ?_
  have c0 : ((((cfg1.win 3).blk t).view.emb (ix3 (0 : Fin 1) (⟨(j 1).val, hj1⟩ : Fin 4) (⟨(j 2).val, hj2⟩ : Fin 8))) 0).val = t.val / 256 := by
    show win1_3.index t (0 : Fin 3) * 1 + 1 * 0 = t.val / 256
    rw [e0]; omega
  have c1 : ((((cfg1.win 3).blk t).view.emb (ix3 (0 : Fin 1) (⟨(j 1).val, hj1⟩ : Fin 4) (⟨(j 2).val, hj2⟩ : Fin 8))) 1).val = (j 1).val := by
    show win1_3.index t (1 : Fin 3) * 4 + 1 * (j 1).val = (j 1).val
    rw [e1]; omega
  have c2 : ((((cfg1.win 3).blk t).view.emb (ix3 (0 : Fin 1) (⟨(j 1).val, hj1⟩ : Fin 4) (⟨(j 2).val, hj2⟩ : Fin 8))) 2).val = (j 2).val := by
    show win1_3.index t (2 : Fin 3) * 8 + 1 * (j 2).val = (j 2).val
    rw [e2]; omega
  simp only [c0, c1, c2]

/-- Every index of the result array is in the block the last point of its half writes back. -/
theorem cover (i : S2x4x8.Idx) : ∃ t : Fin cfg1.N, (cfg1.win 3).flush t = true ∧ i ∈ ((cfg1.win 3).blk t).view.set := by
  have hi0 : (i 0).val < 2 := (i 0).isLt
  have hi1 : (i 1).val < 4 := (i 1).isLt
  have hi2 : (i 2).val < 8 := (i 2).isLt
  have hN : cfg1.N = 512 := N_1
  let t : Fin cfg1.N := ⟨256 * (i 0).val + 255, by rw [hN]; omega⟩
  have ht : t.val = 256 * (i 0).val + 255 := rfl
  obtain ⟨-, -, -, -, -, -, e0, e1, e2, -⟩ := idx_facts t
  refine ⟨t, (flush1_3 t).mpr (by rw [ht]; omega), ?_⟩
  rw [mem_blk]
  intro a
  match a with
  | ⟨0, _⟩ => show win1_3.index t (0 : Fin 3) * 1 ≤ (i 0).val ∧ (i 0).val < win1_3.index t (0 : Fin 3) * 1 + 1; rw [e0, ht]; omega
  | ⟨1, _⟩ => show win1_3.index t (1 : Fin 3) * 4 ≤ (i 1).val ∧ (i 1).val < win1_3.index t (1 : Fin 3) * 4 + 4; rw [e1]; omega
  | ⟨2, _⟩ => show win1_3.index t (2 : Fin 3) * 8 ≤ (i 2).val ∧ (i 2).val < win1_3.index t (2 : Fin 3) * 8 + 8; rw [e2]; omega

/-- THE RESULT ARRAY after the region, whatever the contents it was entered with. -/
theorem final (c : Dev nD) : (dat1 V c).arrAt 3 cfg1.N = halves V c :=
  (dat1 V c).arrAt_eq_of_cover 3 (halves V c) (flushed_eq V c) (cover)

/-- Entry `(a, r, p)` of it, as a sum over the half's 256 blocks. -/
theorem halves_apply (c : Dev nD) (a : Fin 2) (r : Fin 4) (p : Fin 8) :
    halves V c (ix3 a r p)
      = ∑ b : Fin 256, ∑ l : Fin 32768, (arrK5 V c (ix2 r l) * arrK3 V c (ix2 r (gIdx8 a b))) * arrC8 V c (ix2 p (kIdx8 (gIdx8 a b) l)) := by
  show ∑ g ∈ Finset.range 256, contrib V c r p (256 * a.val + g) = _
  rw [Finset.sum_range]
  refine Finset.sum_congr rfl fun b _ => ?_
  have hb : 256 * a.val + b.val < 512 := by have := a.isLt; have := b.isLt; omega
  unfold contrib
  rw [dif_pos hb]
  rfl

end Final

end Cert.KernelIdeal.Region1

end
-- ==== Proof.RefKron.lean ====
import proofs.«131565_j2130303779115_2_alg».proof.Proof.Gen.ReferenceIdeal.Read
import Idealize.ShloMosaic.Lib.ValueIdx

open Cert.ReferenceIdeal Cert.ReferenceIdeal.Read Idealize.ShloMosaic Idealize.ShloMosaic.ValueIdx

noncomputable section

namespace Cert.RefKron
/-! # The reference's Kronecker powers, read by blocks

  `X` is the 4 × 8 input. The reference forms, row by row, the Kronecker powers `K₁ = X` and
  `Kₙ₊₁(r, 8ⁿ a + b) = X(r, a) * Kₙ(r, b)` for `a < 8`, `b < 8ⁿ` (an outer product of the row with its previous power,
  flattened row-major), and contracts each power with a coefficient matrix. This file reads one such step at an index
  (`step2` … `step8`), and from the steps splits the seventh and eighth powers into a low block of five factors
  (`K₅`, 32768 columns) and a high block of two or three factors (`K₂`, `K₃`):
  `K₇(r, 32768 g + l) = K₂(r, g) * K₅(r, l)` and `K₈(r, 32768 g + l) = K₃(r, g) * K₅(r, l)`.
  Only commutativity-free algebra is used: associativity of the extended reals' product. The last two contractions
  are then written as plain sums over the column index. -/

/-- The second Kronecker power of a row: at column `8 a + b` it is `X(r, a) * X(r, b)`. -/
theorem step2 (x0 : (⟨S4x8, .f32⟩ : BufTy).Contents (Elt Ideal)) (r : Fin 4) (a : Fin 8) (b : Fin 8) (k : Fin 64)
    (hk : k.val = 8 * a.val + b.val) :
    val_main_v10 (F := Ideal) x0 (ix2 r k) = x0 (ix2 r a) * x0 (ix2 r b) := by
  rw [val_main_v10_apply, val_main_v9_apply, val_main_v7_apply, val_main_v8_apply, val_main_v5_apply,
    val_main_v6_apply]
  have hr := r.isLt
  have ha := a.isLt
  have hb := b.isLt
  have e1 : idx_main_v5 (idx_main_v7 (idx_main_v10 (ix2 r k))) = ix2 r a := funext fun d => Fin.ext (by
    match d with
    | ⟨0, _⟩ => show (r.val * 64 + k.val) / 64 = r.val; omega
    | ⟨1, _⟩ => show (r.val * 64 + k.val) / 8 % 8 = a.val; omega)
  have e2 : idx_main_v6 (idx_main_v8 (idx_main_v10 (ix2 r k))) = ix2 r b := funext fun d => Fin.ext (by
    match d with
    | ⟨0, _⟩ => show (r.val * 64 + k.val) / 64 = r.val; omega
    | ⟨1, _⟩ => show (r.val * 64 + k.val) % 8 = b.val; omega)
  rw [e1, e2]
  rfl

/-- The third power from the second: at column `64 a + b` it is `X(r, a) * K₂(r, b)`. -/
theorem step3 (x0 : (⟨S4x8, .f32⟩ : BufTy).Contents (Elt Ideal)) (r : Fin 4) (a : Fin 8) (b : Fin 64) (k : Fin 512)
    (hk : k.val = 64 * a.val + b.val) :
    val_main_v19 (F := Ideal) x0 (ix2 r k) = x0 (ix2 r a) * val_main_v10 (F := Ideal) x0 (ix2 r b) := by
  rw [val_main_v19_apply, val_main_v18_apply, val_main_v16_apply, val_main_v17_apply, val_main_v14_apply,
    val_main_v15_apply]
  have hr := r.isLt
  have ha := a.isLt
  have hb := b.isLt
  have e1 : idx_main_v14 (idx_main_v16 (idx_main_v19 (ix2 r k))) = ix2 r a := funext fun d => Fin.ext (by
    match d with
    | ⟨0, _⟩ => show (r.val * 512 + k.val) / 512 = r.val; omega
    | ⟨1, _⟩ => show (r.val * 512 + k.val) / 64 % 8 = a.val; omega)
  have e2 : idx_main_v15 (idx_main_v17 (idx_main_v19 (ix2 r k))) = ix2 r b := funext fun d => Fin.ext (by
    match d with
    | ⟨0, _⟩ => show (r.val * 512 + k.val) / 512 = r.val; omega
    | ⟨1, _⟩ => show (r.val * 512 + k.val) % 64 = b.val; omega)
  rw [e1, e2]
  rfl

/-- The sixth power from the fifth: at column `32768 a + b` it is `X(r, a) * K₅(r, b)`. -/
theorem step6 (x0 : (⟨S4x8, .f32⟩ : BufTy).Contents (Elt Ideal)) (r : Fin 4) (a : Fin 8) (b : Fin 32768) (k : Fin 262144)
    (hk : k.val = 32768 * a.val + b.val) :
    val_main_v46 (F := Ideal) x0 (ix2 r k) = x0 (ix2 r a) * val_main_v37 (F := Ideal) x0 (ix2 r b) := by
  rw [val_main_v46_apply, val_main_v45_apply, val_main_v43_apply, val_main_v44_apply, val_main_v41_apply,
    val_main_v42_apply]
  have hr := r.isLt
  have ha := a.isLt
  have hb := b.isLt
  have e1 : idx_main_v41 (idx_main_v43 (idx_main_v46 (ix2 r k))) = ix2 r a := funext fun d => Fin.ext (by
    match d with
    | ⟨0, _⟩ => show (r.val * 262144 + k.val) / 262144 = r.val; omega
    | ⟨1, _⟩ => show (r.val * 262144 + k.val) / 32768 % 8 = a.val; omega)
  have e2 : idx_main_v42 (idx_main_v44 (idx_main_v46 (ix2 r k))) = ix2 r b := funext fun d => Fin.ext (by
    match d with
    | ⟨0, _⟩ => show (r.val * 262144 + k.val) / 262144 = r.val; omega
    | ⟨1, _⟩ => show (r.val * 262144 + k.val) % 32768 = b.val; omega)
  rw [e1, e2]
  rfl

/-- The seventh power from the sixth: at column `262144 a + b` it is `X(r, a) * K₆(r, b)`. -/
theorem step7 (x0 : (⟨S4x8, .f32⟩ : BufTy).Contents (Elt Ideal)) (r : Fin 4) (a : Fin 8) (b : Fin 262144) (k : Fin 2097152)
    (hk : k.val = 262144 * a.val + b.val) :
    val_main_v55 (F := Ideal) x0 (ix2 r k) = x0 (ix2 r a) * val_main_v46 (F := Ideal) x0 (ix2 r b) := by
  rw [val_main_v55_apply, val_main_v54_apply, val_main_v52_apply, val_main_v53_apply, val_main_v50_apply,
    val_main_v51_apply]
  have hr := r.isLt
  have ha := a.isLt
  have hb := b.isLt
  have e1 : idx_main_v50 (idx_main_v52 (idx_main_v55 (ix2 r k))) = ix2 r a := funext fun d => Fin.ext (by
    match d with
    | ⟨0, _⟩ => show (r.val * 2097152 + k.val) / 2097152 = r.val; omega
    | ⟨1, _⟩ => show (r.val * 2097152 + k.val) / 262144 % 8 = a.val; omega)
  have e2 : idx_main_v51 (idx_main_v53 (idx_main_v55 (ix2 r k))) = ix2 r b := funext fun d => Fin.ext (by
    match d with
    | ⟨0, _⟩ => show (r.val * 2097152 + k.val) / 2097152 = r.val; omega
    | ⟨1, _⟩ => show (r.val * 2097152 + k.val) % 262144 = b.val; omega)
  rw [e1, e2]
  rfl

/-- The eighth power from the seventh: at column `2097152 a + b` it is `X(r, a) * K₇(r, b)`. -/
theorem step8 (x0 : (⟨S4x8, .f32⟩ : BufTy).Contents (Elt Ideal)) (r : Fin 4) (a : Fin 8) (b : Fin 2097152) (k : Fin 16777216)
    (hk : k.val = 2097152 * a.val + b.val) :
    val_main_v64 (F := Ideal) x0 (ix2 r k) = x0 (ix2 r a) * val_main_v55 (F := Ideal) x0 (ix2 r b) := by
  rw [val_main_v64_apply, val_main_v63_apply, val_main_v61_apply, val_main_v62_apply, val_main_v59_apply,
    val_main_v60_apply]
  have hr := r.isLt
  have ha := a.isLt
  have hb := b.isLt
  have e1 : idx_main_v59 (idx_main_v61 (idx_main_v64 (ix2 r k))) = ix2 r a := funext fun d => Fin.ext (by
    match d with
    | ⟨0, _⟩ => show (r.val * 16777216 + k.val) / 16777216 = r.val; omega
    | ⟨1, _⟩ => show (r.val * 16777216 + k.val) / 2097152 % 8 = a.val; omega)
  have e2 : idx_main_v60 (idx_main_v62 (idx_main_v64 (ix2 r k))) = ix2 r b := funext fun d => Fin.ext (by
    match d with
    | ⟨0, _⟩ => show (r.val * 16777216 + k.val) / 16777216 = r.val; omega
    | ⟨1, _⟩ => show (r.val * 16777216 + k.val) % 2097152 = b.val; omega)
  rw [e1, e2]
  rfl

/-- The seventh power splits as (second power of the two leading factors) × (fifth power of the five trailing ones):
    with `g = 8 a + a'` the column `32768 g + l` is `262144 a + (32768 a' + l)`, so two steps peel `X(r, a)` and
    `X(r, a')`, whose product is `K₂(r, g)`. -/
theorem kron7_split (x0 : (⟨S4x8, .f32⟩ : BufTy).Contents (Elt Ideal)) (r : Fin 4) (g : Fin 64) (l : Fin 32768) (k : Fin 2097152)
    (hk : k.val = 32768 * g.val + l.val) :
    val_main_v55 (F := Ideal) x0 (ix2 r k)
      = val_main_v10 (F := Ideal) x0 (ix2 r g) * val_main_v37 (F := Ideal) x0 (ix2 r l) := by
  have hg := g.isLt
  have hl := l.isLt
  have h7 := step7 x0 r ⟨g.val / 8, by omega⟩ ⟨32768 * (g.val % 8) + l.val, by omega⟩ k
    (by show k.val = 262144 * (g.val / 8) + (32768 * (g.val % 8) + l.val); omega)
  have h6 := step6 x0 r ⟨g.val % 8, by omega⟩ l ⟨32768 * (g.val % 8) + l.val, by omega⟩ rfl
  have h2 := step2 x0 r ⟨g.val / 8, by omega⟩ ⟨g.val % 8, by omega⟩ g
    (by show g.val = 8 * (g.val / 8) + g.val % 8; omega)
  rw [h7, h6, h2, mul_assoc]

/-- The eighth power splits as (third power of the three leading factors) × (fifth power of the five trailing ones):
    with `g = 64 a + g'` the column `32768 g + l` is `2097152 a + (32768 g' + l)`; one step peels `X(r, a)`, the
    seventh power's split does the rest, and `X(r, a) * K₂(r, g') = K₃(r, g)`. -/
theorem kron8_split (x0 : (⟨S4x8, .f32⟩ : BufTy).Contents (Elt Ideal)) (r : Fin 4) (g : Fin 512) (l : Fin 32768) (k : Fin 16777216)
    (hk : k.val = 32768 * g.val + l.val) :
    val_main_v64 (F := Ideal) x0 (ix2 r k)
      = val_main_v19 (F := Ideal) x0 (ix2 r g) * val_main_v37 (F := Ideal) x0 (ix2 r l) := by
  have hg := g.isLt
  have hl := l.isLt
  have h8 := step8 x0 r ⟨g.val / 64, by omega⟩ ⟨32768 * (g.val % 64) + l.val, by omega⟩ k
    (by show k.val = 2097152 * (g.val / 64) + (32768 * (g.val % 64) + l.val); omega)
  have h7 := kron7_split x0 r ⟨g.val % 64, by omega⟩ l ⟨32768 * (g.val % 64) + l.val, by omega⟩ rfl
  have h3 := step3 x0 r ⟨g.val / 64, by omega⟩ ⟨g.val % 64, by omega⟩ g
    (by show g.val = 64 * (g.val / 64) + g.val % 64; omega)
  rw [h8, h7, h3, mul_assoc]

/-- The seventh contraction at an index: the sum over the columns of `K₇(r, k)` times the coefficient `c₇(p, k)` (the reference contracts with the transposed coefficient matrix). -/
theorem dot7_apply (x0 : (⟨S4x8, .f32⟩ : BufTy).Contents (Elt Ideal)) (x8 : (⟨S8x2097152, .f32⟩ : BufTy).Contents (Elt Ideal)) (r : Fin 4) (p : Fin 8) :
    val_main_v57 (F := Ideal) x0 x8 (ix2 r p)
      = ∑ k : Fin 2097152, val_main_v55 (F := Ideal) x0 (ix2 r k) * x8 (ix2 p k) := by
  rw [val_main_v57_apply]
  refine Finset.sum_congr rfl fun k _ => ?_
  have el : lidx_main_v57 (ix2 r p) k = ix2 r k := funext fun d => Fin.ext (by
    match d with
    | ⟨0, _⟩ => rfl
    | ⟨1, _⟩ => rfl)
  have er : idx_main_v56 (ridx_main_v57 (ix2 r p) k) = ix2 p k := funext fun d => Fin.ext (by
    match d with
    | ⟨0, _⟩ => rfl
    | ⟨1, _⟩ => rfl)
  rw [val_main_v56_apply, el, er]

/-- The eighth contraction at an index: the sum over the columns of `K₈(r, k)` times the coefficient `c₈(p, k)`. -/
theorem dot8_apply (x0 : (⟨S4x8, .f32⟩ : BufTy).Contents (Elt Ideal)) (x9 : (⟨S8x16777216, .f32⟩ : BufTy).Contents (Elt Ideal)) (r : Fin 4) (p : Fin 8) :
    val_main_v66 (F := Ideal) x0 x9 (ix2 r p)
      = ∑ k : Fin 16777216, val_main_v64 (F := Ideal) x0 (ix2 r k) * x9 (ix2 p k) := by
  rw [val_main_v66_apply]
  refine Finset.sum_congr rfl fun k _ => ?_
  have el : lidx_main_v66 (ix2 r p) k = ix2 r k := funext fun d => Fin.ext (by
    match d with
    | ⟨0, _⟩ => rfl
    | ⟨1, _⟩ => rfl)
  have er : idx_main_v65 (ridx_main_v66 (ix2 r p) k) = ix2 p k := funext fun d => Fin.ext (by
    match d with
    | ⟨0, _⟩ => rfl
    | ⟨1, _⟩ => rfl)
  rw [val_main_v65_apply, el, er]

end Cert.RefKron

end
-- ==== Proof.Bridge.lean ====
/-
  The two programs compute one function: the bridge between the kernel's run and the reference's run, at the exact
  extended reals.

  Both programs start from the bias plus the six direct terms Σ_k K_n(r, k)·c_n(p, k), n ≤ 6, computed by the same host
  operations.  The reference then adds Σ_k K₇(r, k)·c₇(p, k) and Σ_k K₈(r, k)·c₈(p, k) over all 8⁷ and 8⁸ columns.  The
  kernel adds, for each of the two, the sum over two halves of what a tiled product accumulates: block by block,
  Σ_l (K₅(r, l)·K_{n−5}(r, G))·c_n(p, 8⁵·G + l).  Since K_n(r, 8⁵·G + l) = K_{n−5}(r, G)·K₅(r, l), the two are the same
  sum regrouped; sums from zero drop their zero.  No entry needs to be finite.
-/
import proofs.«131565_j2130303779115_2_alg».proof.Proof.KernelRun
import proofs.«131565_j2130303779115_2_alg».proof.Proof.Region0
import proofs.«131565_j2130303779115_2_alg».proof.Proof.Region1
import proofs.«131565_j2130303779115_2_alg».proof.Proof.RefKron
import proofs.«131565_j2130303779115_2_alg».proof.Proof.KronSpec
import Idealize.ShloMosaic.Lib.IdealHost

noncomputable section

namespace Cert.Bridge

open Cert.KernelIdeal Cert.KernelIdeal.Gen Cert.KernelIdeal.KernelRun
open Idealize.ShloMosaic Idealize.ShloMosaic.TcCoe Idealize.SL.Sem Idealize.ShloMosaic.ValueIdx Cert.KronSpec
open Cert.ReferenceIdeal.Read

/-- Summing a `[2, 4, 8]` array over its first axis. -/
theorem reduces_d0 : S2x4x8.Reduces [0] S4x8 := by decide

/-- The two source indices of entry `(r, p)` of that sum are `(0, r, p)` and `(1, r, p)`. -/
theorem lift_half (r : Fin 4) (p : Fin 8) (k : Fin (S2x4x8.size 0)) :
    reduces_d0.lift (ix2 r p) k = ix3 (⟨k.val, k.isLt⟩ : Fin 2) r p := by
  funext d; apply Fin.ext
  fin_cases d <;> rfl

/-- The host's sum of the two halves from zero is the sum of the two halves. -/
theorem halfSum (x : FVec Ideal S2x4x8 .f32) (r : Fin 4) (p : Fin 8) :
    Host.reduceAdd x (constant (F := Ideal) S_ .f32 0x00000000#32) reducesTo_S2x4x8_S4x8_d0 h_S_ (ix2 r p)
      = ∑ a : Fin 2, x (ix3 a r p) := by
  refine (hostReduceAdd_apply x _ reducesTo_S2x4x8_S4x8_d0 h_S_ (ix2 r p)).trans ?_
  rw [Ideal.hostReduceAdd_single reducesTo_S2x4x8_S4x8_d0 reduces_d0]
  show Ideal.ofBits .f32 0x00000000#32 + _ = _
  rw [Ideal.ofBits_zero_f32, zero_add]
  exact Finset.sum_congr rfl fun k _ => congrArg x (lift_half r p k)

variable (m : (ℓ : Loc nD τ sig) → Buf (Elt Ideal) ℓ) (ρ : Dev nD → PrngReg)

/-- The degree-7 term: the two halves the first tiled product leaves add up to the reference's contraction of the
    seventh Kronecker power with the degree-7 coefficients. -/
theorem seventh (c : Dev nD) (r : Fin 4) (p : Fin 8) :
    Host.reduceAdd (F := Ideal) (φ := .f32) (W2 m ρ c (Proc.devRef .tc main_v50)) (constant (F := Ideal) S_ .f32 0x00000000#32) reducesTo_S2x4x8_S4x8_d0 h_S_ (ix2 r p)
      = val_main_v57 (F := Ideal) (m ((c : Thread nD τ).loc main_arg0)) (m ((c : Thread nD τ).loc main_arg8)) (ix2 r p) := by
  refine (halfSum _ r p).trans ?_
  have e50 : W2 m ρ c (Proc.devRef .tc main_v50) = Cert.KernelIdeal.Region0.halves (V1 m ρ) c :=
    (W2_arr m ρ c 3).trans (Cert.KernelIdeal.Region0.final (V1 m ρ) c)
  have hK2 : Cert.KernelIdeal.Region0.arrK2 (V1 m ρ) c = val_main_v10 (F := Ideal) (m ((c : Thread nD τ).loc main_arg0)) := W1_v5 m ρ c
  have hK5 : Cert.KernelIdeal.Region0.arrK5 (V1 m ρ) c = val_main_v37 (F := Ideal) (m ((c : Thread nD τ).loc main_arg0)) := W1_v23 m ρ c
  have hC7 : Cert.KernelIdeal.Region0.arrC7 (V1 m ρ) c = m ((c : Thread nD τ).loc main_arg8) := W1_arg8 m ρ c
  rw [e50]
  simp only [Cert.KernelIdeal.Region0.halves_apply]
  rw [hK2, hK5, hC7, Cert.RefKron.dot7_apply]
  exact (contract (A := 2) (B := 32) (T := 32768) (M := 64) (N := 2097152) (by norm_num) (by norm_num)
    gIdx7 (fun _ _ => rfl) kIdx7 (fun _ _ => rfl)
    (fun k => val_main_v55 (F := Ideal) (m ((c : Thread nD τ).loc main_arg0)) (ix2 r k))
    (fun k => m ((c : Thread nD τ).loc main_arg8) (ix2 p k))
    (fun G => val_main_v10 (F := Ideal) (m ((c : Thread nD τ).loc main_arg0)) (ix2 r G))
    (fun l => val_main_v37 (F := Ideal) (m ((c : Thread nD τ).loc main_arg0)) (ix2 r l))
    (fun G l => Cert.RefKron.kron7_split _ r G l (kIdx7 G l) rfl)).symm

/-- The degree-8 term, likewise, from the second tiled product and the eighth Kronecker power. -/
theorem eighth (c : Dev nD) (r : Fin 4) (p : Fin 8) :
    Host.reduceAdd (F := Ideal) (φ := .f32) (W4 m ρ c (Proc.devRef .tc main_v53)) (constant (F := Ideal) S_ .f32 0x00000000#32) reducesTo_S2x4x8_S4x8_d0 h_S_ (ix2 r p)
      = val_main_v66 (F := Ideal) (m ((c : Thread nD τ).loc main_arg0)) (m ((c : Thread nD τ).loc main_arg9)) (ix2 r p) := by
  refine (halfSum _ r p).trans ?_
  have e53 : W4 m ρ c (Proc.devRef .tc main_v53) = Cert.KernelIdeal.Region1.halves (V3 m ρ) c :=
    (W4_arr m ρ c 3).trans (Cert.KernelIdeal.Region1.final (V3 m ρ) c)
  have hK3 : Cert.KernelIdeal.Region1.arrK3 (V3 m ρ) c = val_main_v19 (F := Ideal) (m ((c : Thread nD τ).loc main_arg0)) :=
    (W3_v11 m ρ c).trans (W1_v11 m ρ c)
  have hK5 : Cert.KernelIdeal.Region1.arrK5 (V3 m ρ) c = val_main_v37 (F := Ideal) (m ((c : Thread nD τ).loc main_arg0)) :=
    (W3_v23 m ρ c).trans (W1_v23 m ρ c)
  have hC8 : Cert.KernelIdeal.Region1.arrC8 (V3 m ρ) c = m ((c : Thread nD τ).loc main_arg9) :=
    (W3_arg9 m ρ c).trans (W1_arg9 m ρ c)
  rw [e53]
  simp only [Cert.KernelIdeal.Region1.halves_apply]
  rw [hK3, hK5, hC8, Cert.RefKron.dot8_apply]
  exact (contract (A := 2) (B := 256) (T := 32768) (M := 512) (N := 16777216) (by norm_num) (by norm_num)
    gIdx8 (fun _ _ => rfl) kIdx8 (fun _ _ => rfl)
    (fun k => val_main_v64 (F := Ideal) (m ((c : Thread nD τ).loc main_arg0)) (ix2 r k))
    (fun k => m ((c : Thread nD τ).loc main_arg9) (ix2 p k))
    (fun G => val_main_v19 (F := Ideal) (m ((c : Thread nD τ).loc main_arg0)) (ix2 r G))
    (fun l => val_main_v37 (F := Ideal) (m ((c : Thread nD τ).loc main_arg0)) (ix2 r l))
    (fun G l => Cert.RefKron.kron8_split _ r G l (kIdx8 G l) rfl)).symm

/-- THE RESULT, entry by entry: the running total of the direct terms plus the two regrouped contractions. -/
theorem result_at (c : Dev nD) (r : Fin 4) (p : Fin 8) :
    W5 m ρ c (Proc.devRef .tc main_v55) (ix2 r p)
      = val_main_v67 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (ix2 r p) := by
  rw [W5_v55, W4_v52, W3_v52, W2_v49, W1_v49]
  show (_ + Host.reduceAdd (F := Ideal) (φ := .f32) (W2 m ρ c (Proc.devRef .tc main_v50)) _ reducesTo_S2x4x8_S4x8_d0 h_S_ (ix2 r p))
      + Host.reduceAdd (F := Ideal) (φ := .f32) (W4 m ρ c (Proc.devRef .tc main_v53)) _ reducesTo_S2x4x8_S4x8_d0 h_S_ (ix2 r p) = _
  rw [seventh m ρ c r p, eighth m ρ c r p]
  rfl

/-- THE RESULT: what the kernel's result buffer holds at the end of its run is the reference's result term of the
    launch contents of the ten arguments. -/
theorem result_eq (c : Dev nD) :
    W5 m ρ c (Proc.devRef .tc main_v55)
      = val_main_v67 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) := by
  funext (j : S4x8.Idx)
  have e : j = ix2 (⟨(j 0).val, (j 0).isLt⟩ : Fin 4) (⟨(j 1).val, (j 1).isLt⟩ : Fin 8) := funext fun a => Fin.ext (by
    match a with
    | ⟨0, _⟩ => rfl
    | ⟨1, _⟩ => rfl)
  exact (congrArg (W5 m ρ c (Proc.devRef .tc main_v55)) e).trans ((result_at m ρ c _ _).trans
    (congrArg (val_main_v67 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9))) e.symm))

end Cert.Bridge

end
-- ==== Proof.lean ====
/-
  A polynomial layer: out(i, p) = bias(p) + Σ_{n=1..8} ⟨c_n(p, ·), x_i^{⊗n}⟩ for the four rows x_i of X, the n-th
  Kronecker power of a row being a vector of 8ⁿ entries.

  The reference builds every Kronecker power K_n, n ≤ 8, by K_{n+1}(r, 8ⁿ·a + b) = X(r, a)·K_n(r, b), and adds the eight
  contractions K_n · c_nᵀ to the bias one after the other.  The kernel computes the powers up to the sixth and the first
  six contractions by the same host operations, and never forms K₇ or K₈: for n = 7, 8 a tiled product walks the 8^{n−5}
  column blocks of c_n of 8⁵ columns each — split in two halves, each half accumulating into its own output block —
  and adds, for block G, Σ_l (K₅(r, l)·K_{n−5}(r, G))·c_n(p, 8⁵·G + l); the two halves are then summed and added to the
  running total.  Read at the exact extended reals the changes of float format are the identity, and since
  K_n(r, 8⁵·G + l) = K_{n−5}(r, G)·K₅(r, l) (associativity of the product), the kernel's blockwise sums are the
  reference's contractions regrouped (commutativity and associativity of the sum).  No law used asks for finite
  entries, so the precondition is not opened.

  The three frames are the generated ones (the reference's is its run with the result dropped); the ideal pass
  rewrote nothing, so the kernel's idealization is preserved trivially; the value claim joins the kernel's run
  (KernelRun, Region0, Region1, Payload) to the reference's (the generated run and its reading, RefKron) by Bridge.
-/
import proofs.«131565_j2130303779115_2_alg».proof.Defs
import proofs.«131565_j2130303779115_2_alg».proof.Proof.Gen.Kernel
import proofs.«131565_j2130303779115_2_alg».proof.Proof.Gen.Kernel.Skeleton
import proofs.«131565_j2130303779115_2_alg».proof.Proof.Gen.Kernel.Launch
import proofs.«131565_j2130303779115_2_alg».proof.Proof.Gen.Kernel.Points
import proofs.«131565_j2130303779115_2_alg».proof.Proof.Gen.Kernel.Frame
import proofs.«131565_j2130303779115_2_alg».proof.Proof.Gen.KernelIdeal
import proofs.«131565_j2130303779115_2_alg».proof.Proof.Gen.KernelIdeal.Skeleton
import proofs.«131565_j2130303779115_2_alg».proof.Proof.Gen.KernelIdeal.Launch
import proofs.«131565_j2130303779115_2_alg».proof.Proof.Gen.KernelIdeal.Points
import proofs.«131565_j2130303779115_2_alg».proof.Proof.Gen.KernelIdeal.Frame
import proofs.«131565_j2130303779115_2_alg».proof.Proof.Gen.ReferenceIdeal
import proofs.«131565_j2130303779115_2_alg».proof.Proof.Gen.Pre_finite_inputs
import proofs.«131565_j2130303779115_2_alg».proof.Proof.Gen.ReferenceIdeal.Run
import proofs.«131565_j2130303779115_2_alg».proof.Proof.Gen.ReferenceIdeal.Read
import proofs.«131565_j2130303779115_2_alg».proof.Proof.KernelRun
import proofs.«131565_j2130303779115_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At the exact extended reals the kernel's result buffer ends at the reference's result term of the kernel's own
    arguments, and the reference's at the same term of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W5 m ρ c (Proc.devRef .tc Cert.KernelIdeal.main_v55),
    Cert.KernelIdeal.KernelRun.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v67_eq, a0, a1, a2, a3, a4, a5, a6, a7, a8, a9]
  exact (Cert.Bridge.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
